-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x1024 : Shape := ⟨3, ![64, 128, 1024]⟩
abbrev S2x2048x1024 : Shape := ⟨3, ![2, 2048, 1024]⟩
abbrev S2x2048x512 : Shape := ⟨3, ![2, 2048, 512]⟩
abbrev S2x2048 : Shape := ⟨2, ![2, 2048]⟩
abbrev S2x2x2048x1024 : Shape := ⟨4, ![2, 2, 2048, 1024]⟩
abbrev S2x2x2048x512 : Shape := ⟨4, ![2, 2, 2048, 512]⟩
abbrev S2x2x2048 : Shape := ⟨3, ![2, 2, 2048]⟩
abbrev S_ : Shape := ⟨0, ![]⟩

class Facts : Prop where
  bcast_S_S64x128x1024 : S_.BroadcastsInDim S64x128x1024 (![] : Fin 0 → Fin S64x128x1024.rank)
  reducesTo_S64x128x1024_S_d0_1_2 : S64x128x1024.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2x2x2048x1024 : S_.BroadcastsInDim S2x2x2048x1024 (![] : Fin 0 → Fin S2x2x2048x1024.rank)
  reducesTo_S2x2x2048x1024_S_d0_1_2_3 : S2x2x2048x1024.ReducesTo [0, 1, 2, 3] S_
  bcast_S_S2x2x2048x512 : S_.BroadcastsInDim S2x2x2048x512 (![] : Fin 0 → Fin S2x2x2048x512.rank)
  reducesTo_S2x2x2048x512_S_d0_1_2_3 : S2x2x2048x512.ReducesTo [0, 1, 2, 3] S_
  bcast_S_S2x2x2048 : S_.BroadcastsInDim S2x2x2048 (![] : Fin 0 → Fin S2x2x2048.rank)
  reducesTo_S2x2x2048_S_d0_1_2 : S2x2x2048.ReducesTo [0, 1, 2] S_

variable [Facts]

def fn_part2 {F : FTy → Type} [FloatOps F] (main_arg7 : FVec F S2x2x2048 .f32) (main_arg8 : FVec F S2x2x2048 .f32) (main_v33 : IVec S_ 1) : IVec S_ 1 :=
  let main_v34 : FVec F S2x2x2048 .f32 := Host.absf main_arg7
  let main_cst_12 : FVec F S_ .f32 := constant S_ .f32 0x7F800000#32
  let main_v35 : FVec F S2x2x2048 .f32 := broadcastInDim S2x2x2048 ![] bcast_S_S2x2x2048 main_cst_12
  let main_v36 : IVec S2x2x2048 1 := cmpf .olt main_v34 main_v35
  let main_c_13 : IVec S_ 1 := constantI S_ 1 1#1
  let main_v37 : IVec S_ 1 := (fun x v => Host.reduce IntOp.andi x v reducesTo_S2x2x2048_S_d0_1_2 h_S_) main_v36 main_c_13
  let main_v38 : IVec S_ 1 := andi main_v33 main_v37
  let main_v39 : FVec F S2x2x2048 .f32 := Host.absf main_arg8
  let main_cst_14 : FVec F S_ .f32 := constant S_ .f32 0x7F800000#32
  let main_v40 : FVec F S2x2x2048 .f32 := broadcastInDim S2x2x2048 ![] bcast_S_S2x2x2048 main_cst_14
  let main_v41 : IVec S2x2x2048 1 := cmpf .olt main_v39 main_v40
  let main_c_15 : IVec S_ 1 := constantI S_ 1 1#1
  let main_v42 : IVec S_ 1 := (fun x v => Host.reduce IntOp.andi x v reducesTo_S2x2x2048_S_d0_1_2 h_S_) main_v41 main_c_15
  let main_v43 : IVec S_ 1 := andi main_v38 main_v42
  main_v43

def fn_part1 {F : FTy → Type} [FloatOps F] (main_arg4 : FVec F S2x2048 .f32) (main_arg5 : FVec F S2x2x2048x1024 .f32) (main_arg6 : FVec F S2x2x2048x512 .f32) (main_arg7 : FVec F S2x2x2048 .f32) (main_arg8 : FVec F S2x2x2048 .f32) (main_v13 : IVec S_ 1) (main_v16 : IVec S2x2048 1) : IVec S_ 1 :=
  let main_c_5 : IVec S_ 1 := constantI S_ 1 1#1
  let main_v17 : IVec S_ 1 := (fun x v => Host.reduce IntOp.andi x v reducesTo_S2x2048_S_d0_1 h_S_) main_v16 main_c_5
  let main_v18 : IVec S_ 1 := andi main_v13 main_v17
  let main_v19 : FVec F S2x2048 .f32 := Host.absf main_arg4
  let main_cst_6 : FVec F S_ .f32 := constant S_ .f32 0x7F800000#32
  let main_v20 : FVec F S2x2048 .f32 := broadcastInDim S2x2048 ![] bcast_S_S2x2048 main_cst_6
  let main_v21 : IVec S2x2048 1 := cmpf .olt main_v19 main_v20
  let main_c_7 : IVec S_ 1 := constantI S_ 1 1#1
  let main_v22 : IVec S_ 1 := (fun x v => Host.reduce IntOp.andi x v reducesTo_S2x2048_S_d0_1 h_S_) main_v21 main_c_7
  let main_v23 : IVec S_ 1 := andi main_v18 main_v22
  let main_v24 : FVec F S2x2x2048x1024 .f32 := Host.absf main_arg5
  let main_cst_8 : FVec F S_ .f32 := constant S_ .f32 0x7F800000#32
  let main_v25 : FVec F S2x2x2048x1024 .f32 := broadcastInDim S2x2x2048x1024 ![] bcast_S_S2x2x2048x1024 main_cst_8
  let main_v26 : IVec S2x2x2048x1024 1 := cmpf .olt main_v24 main_v25
  let main_c_9 : IVec S_ 1 := constantI S_ 1 1#1
  let main_v27 : IVec S_ 1 := (fun x v => Host.reduce IntOp.andi x v reducesTo_S2x2x2048x1024_S_d0_1_2_3 h_S_) main_v26 main_c_9
  let main_v28 : IVec S_ 1 := andi main_v23 main_v27
  let main_v29 : FVec F S2x2x2048x512 .f32 := Host.absf main_arg6
  let main_cst_10 : FVec F S_ .f32 := constant S_ .f32 0x7F800000#32
  let main_v30 : FVec F S2x2x2048x512 .f32 := broadcastInDim S2x2x2048x512 ![] bcast_S_S2x2x2048x512 main_cst_10
  let main_v31 : IVec S2x2x2048x512 1 := cmpf .olt main_v29 main_v30
  let main_c_11 : IVec S_ 1 := constantI S_ 1 1#1
  let main_v32 : IVec S_ 1 := (fun x v => Host.reduce IntOp.andi x v reducesTo_S2x2x2048x512_S_d0_1_2_3 h_S_) main_v31 main_c_11
  let main_v33 : IVec S_ 1 := andi main_v28 main_v32
  fn_part2 (F := F) main_arg7 main_arg8 main_v33

def fn {F : FTy → Type} [FloatOps F] (main_arg0 : FVec F S64x128x1024 .f32) (main_arg1 : FVec F S2x2048x1024 .f32) (main_arg2 : FVec F S2x2048x512 .f32) (main_arg3 : FVec F S2x2048 .f32) (main_arg4 : FVec F S2x2048 .f32) (main_arg5 : FVec F S2x2x2048x1024 .f32) (main_arg6 : FVec F S2x2x2048x512 .f32) (main_arg7 : FVec F S2x2x2048 .f32) (main_arg8 : FVec F S2x2x2048 .f32) : IVec S_ 1 :=
  let main_v0 : FVec F S64x128x1024 .f32 := Host.absf main_arg0
  let main_cst : FVec F S_ .f32 := constant S_ .f32 0x7F800000#32
  let main_v1 : FVec F S64x128x1024 .f32 := broadcastInDim S64x128x1024 ![] bcast_S_S64x128x1024 main_cst
  let main_v2 : IVec S64x128x1024 1 := cmpf .olt main_v0 main_v1
  let main_c : IVec S_ 1 := constantI S_ 1 1#1
  let main_v3 : IVec S_ 1 := (fun x v => Host.reduce IntOp.andi x v reducesTo_S64x128x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x512 .f32 := Host.absf main_arg2
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_c_3 : IVec S_ 1 := constantI S_ 1 1#1
  let main_v12 : IVec S_ 1 := (fun x v => Host.reduce IntOp.andi x v reducesTo_S2x2048x512_S_d0_1_2 h_S_) main_v11 main_c_3
  let main_v13 : IVec S_ 1 := andi main_v8 main_v12
  let main_v14 : FVec F S2x2048 .f32 := Host.absf main_arg3
  let main_cst_4 : FVec F S_ .f32 := constant S_ .f32 0x7F800000#32
  let main_v15 : FVec F S2x2048 .f32 := broadcastInDim S2x2048 ![] bcast_S_S2x2048 main_cst_4
  let main_v16 : IVec S2x2048 1 := cmpf .olt main_v14 main_v15
  fn_part1 (F := F) main_arg4 main_arg5 main_arg6 main_arg7 main_arg8 main_v13 main_v16
-- ==== Kernel.lean ====
abbrev S64x128x1024 : Shape := ⟨3, ![64, 128, 1024]⟩
abbrev S2x2048x1024 : Shape := ⟨3, ![2, 2048, 1024]⟩
abbrev S2x2048x512 : Shape := ⟨3, ![2, 2048, 512]⟩
abbrev S2x2048 : Shape := ⟨2, ![2, 2048]⟩
abbrev S2x2x2048x1024 : Shape := ⟨4, ![2, 2, 2048, 1024]⟩
abbrev S2x2x2048x512 : Shape := ⟨4, ![2, 2, 2048, 512]⟩
abbrev S2x2x2048 : Shape := ⟨3, ![2, 2, 2048]⟩
abbrev S8192x1024 : Shape := ⟨2, ![8192, 1024]⟩
abbrev S1x2048x1024 : Shape := ⟨3, ![1, 2048, 1024]⟩
abbrev S2048x1024 : Shape := ⟨2, ![2048, 1024]⟩
abbrev S1024x2048 : Shape := ⟨2, ![1024, 2048]⟩
abbrev S1024x4096 : Shape := ⟨2, ![1024, 4096]⟩
abbrev S1x2048 : Shape := ⟨2, ![1, 2048]⟩
abbrev S2048 : Shape := ⟨1, ![2048]⟩
abbrev S4096 : Shape := ⟨1, ![4096]⟩
abbrev S1x4096 : Shape := ⟨2, ![1, 4096]⟩
abbrev S1x1x2048x1024 : Shape := ⟨4, ![1, 1, 2048, 1024]⟩
abbrev S1x1x2048 : Shape := ⟨3, ![1, 1, 2048]⟩
abbrev S512x1024 : Shape := ⟨2, ![512, 1024]⟩
abbrev S512x4096 : Shape := ⟨2, ![512, 4096]⟩
abbrev S512x2048 : Shape := ⟨2, ![512, 2048]⟩
abbrev S512x512 : Shape := ⟨2, ![512, 512]⟩

abbrev nBuf : Space → Nat
  | .hbm => 72
  | .vmem => 10
  | .smem => 0
  | _ => 0

abbrev bufTy : (tb : Table) → Fin (tcTables nBuf tb) → BufTy
  | .hbm, ⟨0, _⟩ => ⟨S64x128x1024, .f32⟩
  | .hbm, ⟨1, _⟩ => ⟨S2x2048x1024, .f32⟩
  | .hbm, ⟨2, _⟩ => ⟨S2x2048x512, .f32⟩
  | .hbm, ⟨3, _⟩ => ⟨S2x2048, .f32⟩
  | .hbm, ⟨4, _⟩ => ⟨S2x2048, .f32⟩
  | .hbm, ⟨5, _⟩ => ⟨S2x2x2048x1024, .f32⟩
  | .hbm, ⟨6, _⟩ => ⟨S2x2x2048x512, .f32⟩
  | .hbm, ⟨7, _⟩ => ⟨S2x2x2048, .f32⟩
  | .hbm, ⟨8, _⟩ => ⟨S2x2x2048, .f32⟩
  | .hbm, ⟨9, _⟩ => ⟨S8192x1024, .f32⟩
  | .hbm, ⟨10, _⟩ => ⟨S1x2048x1024, .f32⟩
  | .hbm, ⟨11, _⟩ => ⟨S2048x1024, .f32⟩
  | .hbm, ⟨12, _⟩ => ⟨S1024x2048, .f32⟩
  | .hbm, ⟨13, _⟩ => ⟨S1x2048x1024, .f32⟩
  | .hbm, ⟨14, _⟩ => ⟨S2048x1024, .f32⟩
  | .hbm, ⟨15, _⟩ => ⟨S1024x2048, .f32⟩
  | .hbm, ⟨16, _⟩ => ⟨S1024x4096, .f32⟩
  | .hbm, ⟨17, _⟩ => ⟨S1024x4096, .bf16⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S2048, .f32⟩
  | .hbm, ⟨28, _⟩ => ⟨S4096, .f32⟩
  | .hbm, ⟨29, _⟩ => ⟨S1x4096, .f32⟩
  | .hbm, ⟨30, _⟩ => ⟨S1x1x2048x1024, .f32⟩
  | .hbm, ⟨31, _⟩ => ⟨S2048x1024, .f32⟩
  | .hbm, ⟨32, _⟩ => ⟨S1024x2048, .f32⟩
  | .hbm, ⟨33, _⟩ => ⟨S1x1x2048x1024, .f32⟩
  | .hbm, ⟨34, _⟩ => ⟨S2048x1024, .f32⟩
  | .hbm, ⟨35, _⟩ => ⟨S1024x2048, .f32⟩
  | .hbm, ⟨36, _⟩ => ⟨S1024x4096, .f32⟩
  | .hbm, ⟨37, _⟩ => ⟨S1024x4096, .bf16⟩
  | .hbm, ⟨38, _⟩ => ⟨S1x1x2048, .f32⟩
  | .hbm, ⟨39, _⟩ => ⟨S2048, .f32⟩
  | .hbm, ⟨40, _⟩ => ⟨S1x1x2048, .f32⟩
  | .hbm, ⟨41, _⟩ => ⟨S2048, .f32⟩
  | .hbm, ⟨42, _⟩ => ⟨S2048, .f32⟩
  | .hbm, ⟨43, _⟩ => ⟨S1x1x2048, .f32⟩
  | .hbm, ⟨44, _⟩ => ⟨S2048, .f32⟩
  | .hbm, ⟨45, _⟩ => ⟨S1x1x2048, .f32⟩
  | .hbm, ⟨46, _⟩ => ⟨S2048, .f32⟩
  | .hbm, ⟨47, _⟩ => ⟨S2048, .f32⟩
  | .hbm, ⟨48, _⟩ => ⟨S4096, .f32⟩
  | .hbm, ⟨49, _⟩ => ⟨S1x4096, .f32⟩
  | .hbm, ⟨50, _⟩ => ⟨S1x1x2048x1024, .f32⟩
  | .hbm, ⟨51, _⟩ => ⟨S2048x1024, .f32⟩
  | .hbm, ⟨52, _⟩ => ⟨S1024x2048, .f32⟩
  | .hbm, ⟨53, _⟩ => ⟨S1x1x2048x1024, .f32⟩
  | .hbm, ⟨54, _⟩ => ⟨S2048x1024, .f32⟩
  | .hbm, ⟨55, _⟩ => ⟨S1024x2048, .f32⟩
  | .hbm, ⟨56, _⟩ => ⟨S1024x4096, .f32⟩
  | .hbm, ⟨57, _⟩ => ⟨S1024x4096, .bf16⟩
  | .hbm, ⟨58, _⟩ => ⟨S1x1x2048, .f32⟩
  | .hbm, ⟨59, _⟩ => ⟨S2048, .f32⟩
  | .hbm, ⟨60, _⟩ => ⟨S1x1x2048, .f32⟩
  | .hbm, ⟨61, _⟩ => ⟨S2048, .f32⟩
  | .hbm, ⟨62, _⟩ => ⟨S2048, .f32⟩
  | .hbm, ⟨63, _⟩ => ⟨S1x1x2048, .f32⟩
  | .hbm, ⟨64, _⟩ => ⟨S2048, .f32⟩
  | .hbm, ⟨65, _⟩ => ⟨S1x1x2048, .f32⟩
  | .hbm, ⟨66, _⟩ => ⟨S2048, .f32⟩
  | .hbm, ⟨67, _⟩ => ⟨S2048, .f32⟩
  | .hbm, ⟨68, _⟩ => ⟨S4096, .f32⟩
  | .hbm, ⟨69, _⟩ => ⟨S1x4096, .f32⟩
  | .hbm, ⟨70, _⟩ => ⟨S8192x1024, .f32⟩
  | .hbm, ⟨71, _⟩ => ⟨S64x128x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S1024x4096, .bf16⟩
  | .local _ .vmem, ⟨5, _⟩ => ⟨S1x4096, .f32⟩
  | .local _ .vmem, ⟨6, _⟩ => ⟨S1024x4096, .bf16⟩
  | .local _ .vmem, ⟨7, _⟩ => ⟨S1x4096, .f32⟩
  | .local _ .vmem, ⟨8, _⟩ => ⟨S512x1024, .f32⟩
  | .local _ .vmem, ⟨9, _⟩ => ⟨S512x1024, .f32⟩
  | _, _ => ⟨S64x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x128x1024_S8192x1024 : S64x128x1024.ShapeCasts S8192x1024
  slices_S2x2048x1024_S1x2048x1024_0_0_0 : S2x2048x1024.Slices ![0, 0, 0] S1x2048x1024
  shapeCasts_S1x2048x1024_S2048x1024 : S1x2048x1024.ShapeCasts S2048x1024
  transposes_S2048x1024_S1024x2048_1_0 : S2048x1024.Transposes [1, 0] S1024x2048
  slices_S2x2048x1024_S1x2048x1024_1_0_0 : S2x2048x1024.Slices ![1, 0, 0] S1x2048x1024
  concatenates_S1024x2048_S1024x2048_S1024x4096_d1 : Shape.Concatenates [S1024x2048, S1024x2048] S1024x4096 1
  bitsLt_bf16_f32 : FTy.bits .bf16 < FTy.bits .f32
  slices_S2x2048_S1x2048_0_0 : S2x2048.Slices ![0, 0] S1x2048
  shapeCasts_S1x2048_S2048 : S1x2048.ShapeCasts S2048
  slices_S2x2048_S1x2048_1_0 : S2x2048.Slices ![1, 0] S1x2048
  concatenates_S2048_S2048_S4096_d0 : Shape.Concatenates [S2048, S2048] S4096 0
  shapeCasts_S4096_S1x4096 : S4096.ShapeCasts S1x4096
  slices_S2x2x2048x1024_S1x1x2048x1024_0_0_0_0 : S2x2x2048x1024.Slices ![0, 0, 0, 0] S1x1x2048x1024
  shapeCasts_S1x1x2048x1024_S2048x1024 : S1x1x2048x1024.ShapeCasts S2048x1024
  slices_S2x2x2048x1024_S1x1x2048x1024_0_1_0_0 : S2x2x2048x1024.Slices ![0, 1, 0, 0] S1x1x2048x1024
  slices_S2x2x2048_S1x1x2048_0_0_0 : S2x2x2048.Slices ![0, 0, 0] S1x1x2048
  shapeCasts_S1x1x2048_S2048 : S1x1x2048.ShapeCasts S2048
  slices_S2x2x2048_S1x1x2048_0_1_0 : S2x2x2048.Slices ![0, 1, 0] S1x1x2048
  slices_S2x2x2048x1024_S1x1x2048x1024_1_0_0_0 : S2x2x2048x1024.Slices ![1, 0, 0, 0] S1x1x2048x1024
  slices_S2x2x2048x1024_S1x1x2048x1024_1_1_0_0 : S2x2x2048x1024.Slices ![1, 1, 0, 0] S1x1x2048x1024
  slices_S2x2x2048_S1x1x2048_1_0_0 : S2x2x2048.Slices ![1, 0, 0] S1x1x2048
  slices_S2x2x2048_S1x1x2048_1_1_0 : S2x2x2048.Slices ![1, 1, 0] S1x1x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x2048 : S512x4096.Slices ![0, 0] S512x2048
  slices_S512x4096_o0_2048_S512x2048 : S512x4096.Slices ![0, 2048] S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  concatenates_S512x512_S512x512_S512x1024_d1 : Shape.Concatenates [S512x512, S512x512] S512x1024 1
  shapeCasts_S8192x1024_S64x128x1024 : S8192x1024.ShapeCasts S64x128x1024
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v61) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x128x1024 : Shape := ⟨3, ![64, 128, 1024]⟩
abbrev S2x2048x1024 : Shape := ⟨3, ![2, 2048, 1024]⟩
abbrev S2x2048x512 : Shape := ⟨3, ![2, 2048, 512]⟩
abbrev S2x2048 : Shape := ⟨2, ![2, 2048]⟩
abbrev S2x2x2048x1024 : Shape := ⟨4, ![2, 2, 2048, 1024]⟩
abbrev S2x2x2048x512 : Shape := ⟨4, ![2, 2, 2048, 512]⟩
abbrev S2x2x2048 : Shape := ⟨3, ![2, 2, 2048]⟩
abbrev S8192x1024 : Shape := ⟨2, ![8192, 1024]⟩
abbrev S1x2048x1024 : Shape := ⟨3, ![1, 2048, 1024]⟩
abbrev S2048x1024 : Shape := ⟨2, ![2048, 1024]⟩
abbrev S1x2048 : Shape := ⟨2, ![1, 2048]⟩
abbrev S2048 : Shape := ⟨1, ![2048]⟩
abbrev S1024x2048 : Shape := ⟨2, ![1024, 2048]⟩
abbrev S8192x2048 : Shape := ⟨2, ![8192, 2048]⟩
abbrev S8192x512 : Shape := ⟨2, ![8192, 512]⟩
abbrev S_ : Shape := ⟨0, ![]⟩
abbrev S1x1x2048x1024 : Shape := ⟨4, ![1, 1, 2048, 1024]⟩
abbrev S1x1x2048 : Shape := ⟨3, ![1, 1, 2048]⟩

abbrev nBuf : Space → Nat
  | .hbm => 242
  | .vmem => 0
  | .smem => 0
  | _ => 0

abbrev hbmTy0_0 (i : Nat) : BufTy := match i % 128 with
  | 0 => ⟨S64x128x1024, .f32⟩
  | 1 => ⟨S2x2048x1024, .f32⟩
  | 2 => ⟨S2x2048x512, .f32⟩
  | 3 => ⟨S2x2048, .f32⟩
  | 4 => ⟨S2x2048, .f32⟩
  | 5 => ⟨S2x2x2048x1024, .f32⟩
  | 6 => ⟨S2x2x2048x512, .f32⟩
  | 7 => ⟨S2x2x2048, .f32⟩
  | 8 => ⟨S2x2x2048, .f32⟩
  | 9 => ⟨S8192x1024, .f32⟩
  | 10 => ⟨S1x2048x1024, .f32⟩
  | 11 => ⟨S2048x1024, .f32⟩
  | 12 => ⟨S1x2048, .f32⟩
  | 13 => ⟨S2048, .f32⟩
  | 14 => ⟨S1x2048, .f32⟩
  | 15 => ⟨S2048, .f32⟩
  | 16 => ⟨S1024x2048, .f32⟩
  | 17 => ⟨S8192x2048, .f32⟩
  | 18 => ⟨S1x2048, .f32⟩
  | 19 => ⟨S8192x2048, .f32⟩
  | 20 => ⟨S8192x2048, .f32⟩
  | 21 => ⟨S1x2048, .f32⟩
  | 22 => ⟨S8192x2048, .f32⟩
  | 23 => ⟨S8192x2048, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S8192x512, .f32⟩
  | 47 => ⟨S8192x512, .f32⟩
  | 48 => ⟨S1x2048x1024, .f32⟩
  | 49 => ⟨S2048x1024, .f32⟩
  | 50 => ⟨S1x2048, .f32⟩
  | 51 => ⟨S2048, .f32⟩
  | 52 => ⟨S1x2048, .f32⟩
  | 53 => ⟨S2048, .f32⟩
  | 54 => ⟨S1024x2048, .f32⟩
  | 55 => ⟨S8192x2048, .f32⟩
  | 56 => ⟨S1x2048, .f32⟩
  | 57 => ⟨S8192x2048, .f32⟩
  | 58 => ⟨S8192x2048, .f32⟩
  | 59 => ⟨S1x2048, .f32⟩
  | 60 => ⟨S8192x2048, .f32⟩
  | 61 => ⟨S8192x2048, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S_, .f32⟩
  | 79 => ⟨S8192x512, .f32⟩
  | 80 => ⟨S8192x512, .f32⟩
  | 81 => ⟨S_, .f32⟩
  | 82 => ⟨S8192x512, .f32⟩
  | 83 => ⟨S8192x512, .f32⟩
  | 84 => ⟨S8192x512, .f32⟩
  | 85 => ⟨S8192x512, .f32⟩
  | 86 => ⟨S8192x1024, .f32⟩
  | 87 => ⟨S1x1x2048x1024, .f32⟩
  | 88 => ⟨S2048x1024, .f32⟩
  | 89 => ⟨S1x1x2048, .f32⟩
  | 90 => ⟨S2048, .f32⟩
  | 91 => ⟨S1x1x2048, .f32⟩
  | 92 => ⟨S2048, .f32⟩
  | 93 => ⟨S1024x2048, .f32⟩
  | 94 => ⟨S8192x2048, .f32⟩
  | 95 => ⟨S1x2048, .f32⟩
  | 96 => ⟨S8192x2048, .f32⟩
  | 97 => ⟨S8192x2048, .f32⟩
  | 98 => ⟨S1x2048, .f32⟩
  | 99 => ⟨S8192x2048, .f32⟩
  | 100 => ⟨S8192x2048, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S8192x512, .f32⟩
  | 124 => ⟨S8192x512, .f32⟩
  | 125 => ⟨S1x1x2048x1024, .f32⟩
  | 126 => ⟨S2048x1024, .f32⟩
  | 127 => ⟨S1x1x2048, .f32⟩
  | _ => ⟨S64x128x1024, .f32⟩

abbrev hbmTy0_1 (i : Nat) : BufTy := match i % 128 with
  | 0 => ⟨S2048, .f32⟩
  | 1 => ⟨S1x1x2048, .f32⟩
  | 2 => ⟨S2048, .f32⟩
  | 3 => ⟨S1024x2048, .f32⟩
  | 4 => ⟨S8192x2048, .f32⟩
  | 5 => ⟨S1x2048, .f32⟩
  | 6 => ⟨S8192x2048, .f32⟩
  | 7 => ⟨S8192x2048, .f32⟩
  | 8 => ⟨S1x2048, .f32⟩
  | 9 => ⟨S8192x2048, .f32⟩
  | 10 => ⟨S8192x2048, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S8192x512, .f32⟩
  | 35 => ⟨S8192x1024, .f32⟩
  | 36 => ⟨S1x1x2048x1024, .f32⟩
  | 37 => ⟨S2048x1024, .f32⟩
  | 38 => ⟨S1x1x2048, .f32⟩
  | 39 => ⟨S2048, .f32⟩
  | 40 => ⟨S1x1x2048, .f32⟩
  | 41 => ⟨S2048, .f32⟩
  | 42 => ⟨S1024x2048, .f32⟩
  | 43 => ⟨S8192x2048, .f32⟩
  | 44 => ⟨S1x2048, .f32⟩
  | 45 => ⟨S8192x2048, .f32⟩
  | 46 => ⟨S8192x2048, .f32⟩
  | 47 => ⟨S1x2048, .f32⟩
  | 48 => ⟨S8192x2048, .f32⟩
  | 49 => ⟨S8192x2048, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S8192x512, .f32⟩
  | 73 => ⟨S8192x512, .f32⟩
  | 74 => ⟨S1x1x2048x1024, .f32⟩
  | 75 => ⟨S2048x1024, .f32⟩
  | 76 => ⟨S1x1x2048, .f32⟩
  | 77 => ⟨S2048, .f32⟩
  | 78 => ⟨S1x1x2048, .f32⟩
  | 79 => ⟨S2048, .f32⟩
  | 80 => ⟨S1024x2048, .f32⟩
  | 81 => ⟨S8192x2048, .f32⟩
  | 82 => ⟨S1x2048, .f32⟩
  | 83 => ⟨S8192x2048, .f32⟩
  | 84 => ⟨S8192x2048, .f32⟩
  | 85 => ⟨S1x2048, .f32⟩
  | 86 => ⟨S8192x2048, .f32⟩
  | 87 => ⟨S8192x2048, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S_, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S_, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S8192x512, .f32⟩
  | 111 => ⟨S8192x512, .f32⟩
  | 112 => ⟨S8192x1024, .f32⟩
  | 113 => ⟨S64x128x1024, .f32⟩
  | _ => ⟨S64x128x1024, .f32⟩

abbrev hbmTy (i : Nat) : BufTy := match i / 128 with
  | 0 => hbmTy0_0 i
  | 1 => hbmTy0_1 i
  | _ => ⟨S64x128x1024, .f32⟩

abbrev bufTy : (tb : Table) → Fin (tcTables nBuf tb) → BufTy
  | .hbm, ⟨i, _⟩ => hbmTy i
  | _, _ => ⟨S64x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_7 : Ref sig .tc := ⟨.hbm, 107, rfl⟩
abbrev main_v90 : Ref sig .tc := ⟨.hbm, 108, rfl⟩
abbrev main_v91 : Ref sig .tc := ⟨.hbm, 109, rfl⟩
abbrev main_cst_8 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_9 : Ref sig .tc := ⟨.hbm, 117, rfl⟩
abbrev main_v98 : Ref sig .tc := ⟨.hbm, 118, rfl⟩
abbrev main_v99 : Ref sig .tc := ⟨.hbm, 119, rfl⟩
abbrev main_cst_10 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_11 : Ref sig .tc := ⟨.hbm, 145, rfl⟩
abbrev main_v124 : Ref sig .tc := ⟨.hbm, 146, rfl⟩
abbrev main_v125 : Ref sig .tc := ⟨.hbm, 147, rfl⟩
abbrev main_cst_12 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_13 : Ref sig .tc := ⟨.hbm, 155, rfl⟩
abbrev main_v132 : Ref sig .tc := ⟨.hbm, 156, rfl⟩
abbrev main_v133 : Ref sig .tc := ⟨.hbm, 157, rfl⟩
abbrev main_cst_14 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_cst_15 : Ref sig .tc := ⟨.hbm, 184, rfl⟩
abbrev main_v159 : Ref sig .tc := ⟨.hbm, 185, rfl⟩
abbrev main_v160 : Ref sig .tc := ⟨.hbm, 186, rfl⟩
abbrev main_cst_16 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_cst_17 : Ref sig .tc := ⟨.hbm, 194, rfl⟩
abbrev main_v167 : Ref sig .tc := ⟨.hbm, 195, rfl⟩
abbrev main_v168 : Ref sig .tc := ⟨.hbm, 196, rfl⟩
abbrev main_cst_18 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_cst_19 : Ref sig .tc := ⟨.hbm, 222, rfl⟩
abbrev main_v193 : Ref sig .tc := ⟨.hbm, 223, rfl⟩
abbrev main_v194 : Ref sig .tc := ⟨.hbm, 224, rfl⟩
abbrev main_cst_20 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_cst_21 : Ref sig .tc := ⟨.hbm, 232, rfl⟩
abbrev main_v201 : Ref sig .tc := ⟨.hbm, 233, rfl⟩
abbrev main_v202 : Ref sig .tc := ⟨.hbm, 234, rfl⟩
abbrev main_cst_22 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩

abbrev nD : Nat := 1
abbrev τ : Topo := Topo.v7x

variable {F : FTy → Type} [FloatOps F]

class Facts₀ : Prop where
  shapeCasts_S64x128x1024_S8192x1024 : S64x128x1024.ShapeCasts S8192x1024
  slices_S2x2048x1024_S1x2048x1024_0_0_0 : S2x2048x1024.Slices ![0, 0, 0] S1x2048x1024
  shapeCasts_S1x2048x1024_S2048x1024 : S1x2048x1024.ShapeCasts S2048x1024
  slices_S2x2048_S1x2048_0_0 : S2x2048.Slices ![0, 0] S1x2048
  shapeCasts_S1x2048_S2048 : S1x2048.ShapeCasts S2048
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x2048_S8192x512_0_0 : S8192x2048.Slices ![0, 0] S8192x512
  slices_S8192x2048_S8192x512_0_512 : S8192x2048.Slices ![0, 512] S8192x512
  slices_S8192x2048_S8192x512_0_1024 : S8192x2048.Slices ![0, 1024] S8192x512
  slices_S8192x2048_S8192x512_0_1536 : S8192x2048.Slices ![0, 1536] S8192x512
  bcast_S_S8192x512 : S_.BroadcastsInDim S8192x512 (![] : Fin 0 → Fin S8192x512.rank)
  slices_S2x2048x1024_S1x2048x1024_1_0_0 : S2x2048x1024.Slices ![1, 0, 0] S1x2048x1024
  slices_S2x2048_S1x2048_1_0 : S2x2048.Slices ![1, 0] S1x2048
  concatenates_S8192x512_S8192x512_S8192x1024_d1 : Shape.Concatenates [S8192x512, S8192x512] S8192x1024 1
  slices_S2x2x2048x1024_S1x1x2048x1024_0_0_0_0 : S2x2x2048x1024.Slices ![0, 0, 0, 0] S1x1x2048x1024
  shapeCasts_S1x1x2048x1024_S2048x1024 : S1x1x2048x1024.ShapeCasts S2048x1024
  slices_S2x2x2048_S1x1x2048_0_0_0 : S2x2x2048.Slices ![0, 0, 0] S1x1x2048
  shapeCasts_S1x1x2048_S2048 : S1x1x2048.ShapeCasts S2048
  slices_S2x2x2048x1024_S1x1x2048x1024_0_1_0_0 : S2x2x2048x1024.Slices ![0, 1, 0, 0] S1x1x2048x1024
  slices_S2x2x2048_S1x1x2048_0_1_0 : S2x2x2048.Slices ![0, 1, 0] S1x1x2048
  slices_S2x2x2048x1024_S1x1x2048x1024_1_0_0_0 : S2x2x2048x1024.Slices ![1, 0, 0, 0] S1x1x2048x1024
  slices_S2x2x2048_S1x1x2048_1_0_0 : S2x2x2048.Slices ![1, 0, 0] S1x1x2048
  slices_S2x2x2048x1024_S1x1x2048x1024_1_1_0_0 : S2x2x2048x1024.Slices ![1, 1, 0, 0] S1x1x2048x1024
  slices_S2x2x2048_S1x1x2048_1_1_0 : S2x2x2048.Slices ![1, 1, 0] S1x1x2048
  shapeCasts_S8192x1024_S64x128x1024 : S8192x1024.ShapeCasts S64x128x1024
  dot_S8192x1024_S1024x2048_S8192x2048_1_0_0_1_n_n_wf : DotDims.WF S8192x1024 S1024x2048 S8192x2048 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf

class Facts : Prop extends Facts₀ where

variable [Facts]
-- ==== Proof.Spec.lean ====
/-
  The mathematics both programs compute, stated once over plain coordinates on the extended reals.

  One layer of a bidirectional one-step LSTM started from zero state: for each direction d the 2048 gate
  pre-activations of a row are z_d(j) = Σ_k inp(k) · W_d(j, k) + b_ih,d(j) + b_hh,d(j); with the gate order i, f, g, o
  in slabs of 512, the hidden value at position q is σ(z(1536 + q)) · tanh (σ(z(q)) · tanh (z(1024 + q))) (the forget
  gate multiplies the zero cell state and drops out). A layer's output row of 1024 puts the forward direction in
  columns 0 … 511 and the backward one in columns 512 … 1023. The network is three such layers, row by row.
-/
import Idealize.ShloMosaic.PureOps.Ideal
import Idealize.ShloMosaic.PureOps.Ideal.Laws
import Idealize.ShloMosaic.Lib.ValueIdx

noncomputable section

open scoped BigOperators

namespace Cert.Lstm

open Idealize.ShloMosaic Idealize.ShloMosaic.ValueIdx

/-- The hidden value at position `q` of one direction, from that direction's 2048 gate pre-activations. -/
def cell (z : Fin 2048 → EReal) (q : Fin 512) : EReal :=
  Ideal.logistic (z ⟨1536 + q.val, by omega⟩)
    * Ideal.tanh (Ideal.logistic (z ⟨0 + q.val, by omega⟩) * Ideal.tanh (z ⟨1024 + q.val, by omega⟩))

/-- Gate pre-activation `j` of one direction: the input row against row `j` of the weights, plus both biases. -/
def gates (inp : Fin 1024 → EReal) (W : Fin 2048 → Fin 1024 → EReal) (bi bh : Fin 2048 → EReal) (j : Fin 2048) : EReal :=
  (∑ k : Fin 1024, inp k * W j k) + bi j + bh j

/-- One layer's output row: the forward direction's 512 hidden values, then the backward direction's. -/
def layerRow (inp : Fin 1024 → EReal) (W : Fin 2 → Fin 2048 → Fin 1024 → EReal) (bi bh : Fin 2 → Fin 2048 → EReal)
    (col : Fin 1024) : EReal :=
  if h : col.val < 512 then cell (gates inp (W 0) (bi 0) (bh 0)) ⟨col.val, h⟩
  else cell (gates inp (W 1) (bi 1) (bh 1)) ⟨col.val - 512, by omega⟩

/-- The three layers on one row. -/
def net (x : Fin 1024 → EReal)
    (W0 : Fin 2 → Fin 2048 → Fin 1024 → EReal) (bi0 bh0 : Fin 2 → Fin 2048 → EReal)
    (W1 : Fin 2 → Fin 2048 → Fin 1024 → EReal) (bi1 bh1 : Fin 2 → Fin 2048 → EReal)
    (W2 : Fin 2 → Fin 2048 → Fin 1024 → EReal) (bi2 bh2 : Fin 2 → Fin 2048 → EReal) : Fin 1024 → EReal :=
  layerRow (layerRow (layerRow x W0 bi0 bh0) W1 bi1 bh1) W2 bi2 bh2

/-- The whole result as a matrix of 8192 rows: row `R` is the network on row `R` of the input matrix; the
    parameters are read off the weight and bias arrays by coordinates (layer 0 from the rank-3 / rank-2 arrays, layers 1
    and 2 from slabs 0 and 1 of the rank-4 / rank-3 ones). -/
def G (x : (⟨2, ![8192, 1024]⟩ : Shape).Idx → EReal)
    (a1 : (⟨3, ![2, 2048, 1024]⟩ : Shape).Idx → EReal) (a3 a4 : (⟨2, ![2, 2048]⟩ : Shape).Idx → EReal)
    (a5 : (⟨4, ![2, 2, 2048, 1024]⟩ : Shape).Idx → EReal) (a7 a8 : (⟨3, ![2, 2, 2048]⟩ : Shape).Idx → EReal) :
    (⟨2, ![8192, 1024]⟩ : Shape).Idx → EReal :=
  fun i => net (fun k => x (ix2 (i 0) k))
    (fun d j k => a1 (ix3 d j k)) (fun d j => a3 (ix2 d j)) (fun d j => a4 (ix2 d j))
    (fun d j k => a5 (ix4 (0 : Fin 2) d j k)) (fun d j => a7 (ix3 (0 : Fin 2) d j)) (fun d j => a8 (ix3 (0 : Fin 2) d j))
    (fun d j k => a5 (ix4 (1 : Fin 2) d j k)) (fun d j => a7 (ix3 (1 : Fin 2) d j)) (fun d j => a8 (ix3 (1 : Fin 2) d j))
    (i 1)

/-- The word of 1.0 is the real one. -/
theorem ofBits_one_f32 : Ideal.ofBits .f32 0x3F800000#32 = 1 := by
  simp [Ideal.ofBits, Ideal.ieee, -EReal.coe_mul]; norm_num

/-- The host's expansion of the logistic function, 1 / (1 + e^(-x)) with the ones as float words, is the logistic function,
    at every extended real. -/
theorem host_logistic (x : EReal) :
    Ideal.div (Ideal.ofBits .f32 0x3F800000#32) (Ideal.ofBits .f32 0x3F800000#32 + Ideal.exp (-x)) = Ideal.logistic x := by
  rw [ofBits_one_f32]; rfl

end Cert.Lstm

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KernelLayer.lean ====
/-
  One layer of the kernel's body as a function of vectors, and its value at a coordinate.

  The body is three copies of the same computation on a tile of 512 rows: the input tile times the merged weight matrix
  [1024, 4096] (both directions' gate columns side by side: forward in columns 0 … 2047, backward in 2048 … 4095) plus
  the merged bias row, then per direction the gate slabs i, f, g, o of 512 columns each and the hidden value
  σ(o) · tanh (σ(i) · tanh g), the two directions' hidden values concatenated into 1024 columns. Here that computation is
  named (`KGates`, `KCell`, `KOut`), the body's payloads are shown to be its three-fold composition, and at the
  extended reals its value at row r, column c is read off as the specification's `layerRow` of row r of the input.
-/
import proofs.«161337_j13580686590591_2_alg».proof.Proof.Gen.KernelIdeal.Skeleton
import proofs.«161337_j13580686590591_2_alg».proof.Proof.Spec
import proofs.«161337_j13580686590591_2_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer

open Idealize.ShloMosaic Idealize.ShloMosaic.ValueIdx Cert.KernelIdeal Cert.KernelIdeal.Gen Cert.Lstm

section Generic
variable {F : FTy → Type} [FloatOps F]

/-- The gate pre-activations of a tile: the tile times the merged weights into a zero accumulator, plus the bias row on
    every row. -/
def KGates (inp : FVec F S512x1024 .f32) (w : Vec F S1024x4096 .bf16) (b : Vec F S1x4096 .f32) : FVec F S512x4096 .f32 :=
  addf (matmul dot_S512x1024_S1024x4096_S512x4096_1_0_0_1_n_n none (truncf .bf16 inp bitsLt_bf16_f32)
      (shapeCast S1024x4096 w shapeCasts_S1024x4096_S1024x4096) (constant S512x4096 .f32 0x00000000#32))
    (broadcastTo S512x4096 (shapeCast S1x4096 b shapeCasts_S1x4096_S1x4096) broadcasts_S1x4096_S512x4096)

/-- One direction's hidden values from its 2048 gate columns. -/
def KCell (z : FVec F S512x2048 .f32) : FVec F S512x512 .f32 :=
  mulf (logistic (extractStridedSlice S512x512 ![0, 1536] z slices_S512x2048_o0_1536_S512x512))
    (tanh (mulf (logistic (extractStridedSlice S512x512 ![0, 0] z slices_S512x2048_o0_0_S512x512))
      (tanh (extractStridedSlice S512x512 ![0, 1024] z slices_S512x2048_o0_1024_S512x512))))

/-- Both directions' hidden values side by side, from the 4096 gate columns. -/
def KOut (z : FVec F S512x4096 .f32) : FVec F S512x1024 .f32 :=
  concatenate S512x1024 1
    [⟨S512x512, KCell (extractStridedSlice S512x2048 ![0, 0] z slices_S512x4096_o0_0_S512x2048)⟩,
     ⟨S512x512, KCell (extractStridedSlice S512x2048 ![0, 2048] z slices_S512x4096_o0_2048_S512x2048)⟩]
    concatenates_S512x512_S512x512_S512x1024_d1

/-- The body's first gate payload is the first layer's gates of the loaded tile. -/
theorem pay2_eq (v0 : Vec F S512x1024 .f32) (v3 : Vec F S1024x4096 .bf16) (v6 : Vec F S1x4096 .f32) :
    k0_pay2 v0 v3 v6 = KGates (shapeCast S512x1024 v0 shapeCasts_S512x1024_S512x1024) v3 v6 := rfl

/-- The second gate payload is the second layer's gates of the first layer's output. -/
theorem pay5_eq (v0 : Vec F S512x1024 .f32) (v3 : Vec F S1024x4096 .bf16) (v6 : Vec F S1x4096 .f32)
    (v34 : Vec F S1024x4096 .bf16) (v37 : Vec F S1x4096 .f32) :
    k0_pay5 v0 v3 v6 v34 v37 = KGates (KOut (k0_pay2 v0 v3 v6)) v34 v37 := rfl

/-- The stored payload is the third layer's output of the second layer's output. -/
theorem pay1_eq (v0 : Vec F S512x1024 .f32) (v3 : Vec F S1024x4096 .bf16) (v6 : Vec F S1x4096 .f32)
    (v34 : Vec F S1024x4096 .bf16) (v37 : Vec F S1x4096 .f32) (v65 : Vec F S1024x4096 .bf16) (v68 : Vec F S1x4096 .f32) :
    k0_pay1 (k0_pay7 v0 v3 v6 v34 v37) (k0_pay8 v0 v3 v6 v34 v37) (k0_pay9 v0 v3 v6 v34 v37) (k0_pay10 v0 v3 v6 v34 v37) v65 v68
      = KOut (KGates (KOut (k0_pay5 v0 v3 v6 v34 v37)) v65 v68) := rfl

end Generic

/-! ## At the extended reals, by coordinates -/

/-- The gates at row `r`, column `j`: the row against column `j` of the weights, plus the bias at `j`. -/
theorem KGates_apply (inp : FVec Ideal S512x1024 .f32) (w : Vec Ideal S1024x4096 .bf16) (b : Vec Ideal S1x4096 .f32)
    (r : Fin 512) (j : Fin 4096) :
    KGates inp w b (ix2 r j) = (∑ k : Fin 1024, inp (ix2 r k) * w (ix2 k j)) + b (ix2 (0 : Fin 1) j) := by
  unfold KGates
  rw [addf_apply, broadcastTo_1b_ab_apply, shapeCast_self, shapeCast_self,
    LibMatmulNN.matmul_nn_apply _ rfl rfl rfl rfl rfl rfl]
  rfl

/-- One direction's hidden value at row `r`, position `q`. -/
theorem KCell_apply (z : FVec Ideal S512x2048 .f32) (r : Fin 512) (q : Fin 512) :
    KCell z (ix2 r q) = cell (fun j => z (ix2 r j)) q := by
  unfold KCell cell
  show Ideal.logistic (extractStridedSlice S512x512 ![0, 1536] z _ (ix2 r q))
      * Ideal.tanh (Ideal.logistic (extractStridedSlice S512x512 ![0, 0] z _ (ix2 r q))
        * Ideal.tanh (extractStridedSlice S512x512 ![0, 1024] z _ (ix2 r q))) = _
  rw [slice2_axis1_eq, slice2_axis1_eq, slice2_axis1_eq]

/-- The layer's output at row `r`, column `col`: the forward direction's hidden value in the first 512 columns, the
    backward direction's in the last 512, each from its own 2048 gate columns. -/
theorem KOut_apply (z : FVec Ideal S512x4096 .f32) (r : Fin 512) (col : Fin 1024) :
    KOut z (ix2 r col)
      = if h : col.val < 512 then cell (fun j => z (ix2 r ⟨0 + j.val, by omega⟩)) ⟨col.val, h⟩
        else cell (fun j => z (ix2 r ⟨2048 + j.val, by omega⟩)) ⟨col.val - 512, by omega⟩ := by
  unfold KOut
  split
  · next h =>
    refine (concatenate_pair_apply_left (t := S512x1024) (s₁ := S512x512) (s₂ := S512x512) (1 : Fin 2) _ _
      concatenates_S512x512_S512x512_S512x1024_d1 (ix2 r col) rfl (ix2 r (⟨col.val, h⟩ : Fin 512))
      (fun b => match b with | ⟨0, _⟩ => rfl | ⟨1, _⟩ => rfl)).trans ?_
    rw [KCell_apply]
    congr 1
    funext j
    exact slice2_axis1_eq 0 z _ r j
  · next h =>
    refine (concatenate_pair_apply_right (t := S512x1024) (s₁ := S512x512) (s₂ := S512x512) (1 : Fin 2) _ _
      concatenates_S512x512_S512x512_S512x1024_d1 (ix2 r col) rfl rfl (ix2 r (⟨col.val - 512, by omega⟩ : Fin 512))
      (fun b hb => match b, hb with | ⟨0, _⟩, _ => rfl | ⟨1, _⟩, hb => absurd rfl hb)
      (by show col.val - 512 + 512 = col.val; omega)).trans ?_
    rw [KCell_apply]
    congr 1
    funext j
    exact slice2_axis1_eq 2048 z _ r j

/-- A whole layer on a tile, at row `r`, column `col`, is the specification's layer on row `r` of the tile — when the
    merged weights hold direction `d`'s matrix transposed in columns `2048 d …`, and the merged bias the sum of the two
    biases there. The kernel adds the two biases first and the product last; the sum is the same, addition of extended
    reals being associative. -/
theorem layer_apply (inp : FVec Ideal S512x1024 .f32) (w : Vec Ideal S1024x4096 .bf16) (b : Vec Ideal S1x4096 .f32)
    (W : Fin 2 → Fin 2048 → Fin 1024 → EReal) (bi bh : Fin 2 → Fin 2048 → EReal)
    (hw0 : ∀ (j : Fin 2048) (k : Fin 1024), w (ix2 k (⟨0 + j.val, by omega⟩ : Fin 4096)) = W 0 j k)
    (hw1 : ∀ (j : Fin 2048) (k : Fin 1024), w (ix2 k (⟨2048 + j.val, by omega⟩ : Fin 4096)) = W 1 j k)
    (hb0 : ∀ j : Fin 2048, b (ix2 (0 : Fin 1) (⟨0 + j.val, by omega⟩ : Fin 4096)) = bi 0 j + bh 0 j)
    (hb1 : ∀ j : Fin 2048, b (ix2 (0 : Fin 1) (⟨2048 + j.val, by omega⟩ : Fin 4096)) = bi 1 j + bh 1 j)
    (r : Fin 512) (col : Fin 1024) :
    KOut (KGates inp w b) (ix2 r col) = layerRow (fun k => inp (ix2 r k)) W bi bh col := by
  rw [KOut_apply]
  unfold layerRow
  split
  · congr 1
    funext j
    rw [KGates_apply, hb0]
    unfold gates
    rw [add_assoc]
    congr 2
    funext k
    rw [hw0]
  · congr 1
    funext j
    rw [KGates_apply, hb1]
    unfold gates
    rw [add_assoc]
    congr 2
    funext k
    rw [hw1]

end Cert.KernelIdeal.Layer

end
-- ==== Proof.Layouts.lean ====
/-
  Host layout steps both programs use to take the parameters apart, read at coordinates.

  A slab of a stacked weight array — slice one (or two) leading coordinates to extent 1, then drop the unit axes by a reshape —
  reads the array at those leading coordinates; likewise for a stacked bias. Two transposed matrices concatenated along the
  columns read, in the left half, the first matrix with the coordinates swapped, and in the right half the second; two
  vectors concatenated read the first in the lower half and the second in the upper.
-/
import Idealize.ShloMosaic.Lib.ValueIdx
import Idealize.ShloMosaic.Lib.ValueLayout
import Idealize.ShloMosaic.Lib.Pipeline.Value

noncomputable section

namespace Cert.Layouts

open Idealize.ShloMosaic Idealize.ShloMosaic.ValueIdx

variable {α : Type}

/-- Matrix `d` of a stack of two `[2048, 1024]` matrices. -/
theorem slab3_apply (X : (⟨3, ![2, 2048, 1024]⟩ : Shape).Idx → α) (d : Fin 2) (o : Nat) (ho : d.val = o)
    (h1 : (⟨3, ![2, 2048, 1024]⟩ : Shape).Slices ![o, 0, 0] ⟨3, ![1, 2048, 1024]⟩)
    (h2 : (⟨3, ![1, 2048, 1024]⟩ : Shape).ShapeCasts ⟨2, ![2048, 1024]⟩) (j : Fin 2048) (k : Fin 1024) :
    shapeCast ⟨2, ![2048, 1024]⟩ (extractStridedSlice ⟨3, ![1, 2048, 1024]⟩ ![o, 0, 0] X h1) h2 (ix2 j k) = X (ix3 d j k) := by
  rw [shapeCast_1ab_ab_apply]
  exact extractStridedSlice_apply _ _ _ _ _ (fun ax => match ax with
    | ⟨0, _⟩ => by show d.val = o + 0; omega
    | ⟨1, _⟩ => (Nat.zero_add _).symm
    | ⟨2, _⟩ => (Nat.zero_add _).symm)

/-- Matrix `(l, d)` of a two-by-two stack of `[2048, 1024]` matrices. -/
theorem slab4_apply (X : (⟨4, ![2, 2, 2048, 1024]⟩ : Shape).Idx → α) (l d : Fin 2) (ol od : Nat) (hl : l.val = ol) (hd : d.val = od)
    (h1 : (⟨4, ![2, 2, 2048, 1024]⟩ : Shape).Slices ![ol, od, 0, 0] ⟨4, ![1, 1, 2048, 1024]⟩)
    (h2 : (⟨4, ![1, 1, 2048, 1024]⟩ : Shape).ShapeCasts ⟨2, ![2048, 1024]⟩) (j : Fin 2048) (k : Fin 1024) :
    shapeCast ⟨2, ![2048, 1024]⟩ (extractStridedSlice ⟨4, ![1, 1, 2048, 1024]⟩ ![ol, od, 0, 0] X h1) h2 (ix2 j k) = X (ix4 l d j k) := by
  rw [shapeCast_apply _ h2 (ix2 j k) (ix4 (0 : Fin 1) (0 : Fin 1) j k) (by
    rw [Shape.rowMajor_val_four, Shape.rowMajor_val_two]
    show ((0 * 1 + 0) * 2048 + j.val) * 1024 + k.val = j.val * 1024 + k.val
    omega)]
  exact extractStridedSlice_apply _ _ _ _ _ (fun ax => match ax with
    | ⟨0, _⟩ => by show l.val = ol + 0; omega
    | ⟨1, _⟩ => by show d.val = od + 0; omega
    | ⟨2, _⟩ => (Nat.zero_add _).symm
    | ⟨3, _⟩ => (Nat.zero_add _).symm)

/-- Vector `d` of a stack of two vectors of 2048. -/
theorem vec2_apply (X : (⟨2, ![2, 2048]⟩ : Shape).Idx → α) (d : Fin 2) (o : Nat) (ho : d.val = o)
    (h1 : (⟨2, ![2, 2048]⟩ : Shape).Slices ![o, 0] ⟨2, ![1, 2048]⟩)
    (h2 : (⟨2, ![1, 2048]⟩ : Shape).ShapeCasts ⟨1, ![2048]⟩) (j : Fin 2048) :
    shapeCast ⟨1, ![2048]⟩ (extractStridedSlice ⟨2, ![1, 2048]⟩ ![o, 0] X h1) h2 (ix1 j) = X (ix2 d j) := by
  rw [shapeCast_1a_a_apply]
  exact slice2_axis0_apply o X h1 0 j d (by show d.val = o + 0; omega)

/-- Vector `(l, d)` of a two-by-two stack of vectors of 2048. -/
theorem vec3_apply (X : (⟨3, ![2, 2, 2048]⟩ : Shape).Idx → α) (l d : Fin 2) (ol od : Nat) (hl : l.val = ol) (hd : d.val = od)
    (h1 : (⟨3, ![2, 2, 2048]⟩ : Shape).Slices ![ol, od, 0] ⟨3, ![1, 1, 2048]⟩)
    (h2 : (⟨3, ![1, 1, 2048]⟩ : Shape).ShapeCasts ⟨1, ![2048]⟩) (j : Fin 2048) :
    shapeCast ⟨1, ![2048]⟩ (extractStridedSlice ⟨3, ![1, 1, 2048]⟩ ![ol, od, 0] X h1) h2 (ix1 j) = X (ix3 l d j) := by
  rw [shapeCast_apply _ h2 (ix1 j) (ix3 (0 : Fin 1) (0 : Fin 1) j) (by
    rw [Shape.rowMajor_val_three, Shape.rowMajor_val_one]
    show (0 * 1 + 0) * 2048 + j.val = j.val
    omega)]
  exact extractStridedSlice_apply _ _ _ _ _ (fun ax => match ax with
    | ⟨0, _⟩ => by show l.val = ol + 0; omega
    | ⟨1, _⟩ => by show d.val = od + 0; omega
    | ⟨2, _⟩ => (Nat.zero_add _).symm)

/-- Two `[2048, 1024]` matrices transposed and set side by side: the left 2048 columns are the first one's rows. -/
theorem wcat_left (A B : (⟨2, ![2048, 1024]⟩ : Shape).Idx → α)
    (hT : (⟨2, ![2048, 1024]⟩ : Shape).Transposes [1, 0] ⟨2, ![1024, 2048]⟩)
    (hC : Shape.Concatenates [(⟨2, ![1024, 2048]⟩ : Shape), ⟨2, ![1024, 2048]⟩] ⟨2, ![1024, 4096]⟩ 1)
    (k : Fin 1024) (j : Fin 2048) :
    concatenate ⟨2, ![1024, 4096]⟩ 1 [⟨⟨2, ![1024, 2048]⟩, transpose ⟨2, ![1024, 2048]⟩ [1, 0] A hT⟩,
        ⟨⟨2, ![1024, 2048]⟩, transpose ⟨2, ![1024, 2048]⟩ [1, 0] B hT⟩] hC (ix2 k (⟨0 + j.val, by omega⟩ : Fin 4096))
      = A (ix2 j k) := by
  refine (concatenate_pair_apply_left (t := ⟨2, ![1024, 4096]⟩) (s₁ := ⟨2, ![1024, 2048]⟩) (s₂ := ⟨2, ![1024, 2048]⟩) (1 : Fin 2) _ _
    hC _ rfl (ix2 k j) (fun b => match b with | ⟨0, _⟩ => rfl | ⟨1, _⟩ => (Nat.zero_add _).symm)).trans ?_
  exact transpose_ix2_apply A hT k j

/-- … and the right 2048 columns are the second one's rows. -/
theorem wcat_right (A B : (⟨2, ![2048, 1024]⟩ : Shape).Idx → α)
    (hT : (⟨2, ![2048, 1024]⟩ : Shape).Transposes [1, 0] ⟨2, ![1024, 2048]⟩)
    (hC : Shape.Concatenates [(⟨2, ![1024, 2048]⟩ : Shape), ⟨2, ![1024, 2048]⟩] ⟨2, ![1024, 4096]⟩ 1)
    (k : Fin 1024) (j : Fin 2048) :
    concatenate ⟨2, ![1024, 4096]⟩ 1 [⟨⟨2, ![1024, 2048]⟩, transpose ⟨2, ![1024, 2048]⟩ [1, 0] A hT⟩,
        ⟨⟨2, ![1024, 2048]⟩, transpose ⟨2, ![1024, 2048]⟩ [1, 0] B hT⟩] hC (ix2 k (⟨2048 + j.val, by omega⟩ : Fin 4096))
      = B (ix2 j k) := by
  refine (concatenate_pair_apply_right (t := ⟨2, ![1024, 4096]⟩) (s₁ := ⟨2, ![1024, 2048]⟩) (s₂ := ⟨2, ![1024, 2048]⟩) (1 : Fin 2) _ _
    hC _ rfl rfl (ix2 k j) (fun b hb => match b, hb with | ⟨0, _⟩, _ => rfl | ⟨1, _⟩, hb => absurd rfl hb)
    (by show j.val + 2048 = 2048 + j.val; omega)).trans ?_
  exact transpose_ix2_apply B hT k j

/-- Two vectors of 2048 end to end, as one row `[1, 4096]`: the lower half is the first. -/
theorem bcat_left (u v : (⟨1, ![2048]⟩ : Shape).Idx → α)
    (hC : Shape.Concatenates [(⟨1, ![2048]⟩ : Shape), ⟨1, ![2048]⟩] ⟨1, ![4096]⟩ 0)
    (hS : (⟨1, ![4096]⟩ : Shape).ShapeCasts ⟨2, ![1, 4096]⟩) (j : Fin 2048) :
    shapeCast ⟨2, ![1, 4096]⟩ (concatenate ⟨1, ![4096]⟩ 0 [⟨⟨1, ![2048]⟩, u⟩, ⟨⟨1, ![2048]⟩, v⟩] hC) hS
        (ix2 (0 : Fin 1) (⟨0 + j.val, by omega⟩ : Fin 4096)) = u (ix1 j) := by
  rw [shapeCast_a_1a_apply]
  exact concatenate_pair_apply_left (t := ⟨1, ![4096]⟩) (s₁ := ⟨1, ![2048]⟩) (s₂ := ⟨1, ![2048]⟩) (0 : Fin 1) _ _
    hC _ rfl (ix1 j) (fun b => match b with | ⟨0, _⟩ => (Nat.zero_add _).symm)

/-- … and the upper half the second. -/
theorem bcat_right (u v : (⟨1, ![2048]⟩ : Shape).Idx → α)
    (hC : Shape.Concatenates [(⟨1, ![2048]⟩ : Shape), ⟨1, ![2048]⟩] ⟨1, ![4096]⟩ 0)
    (hS : (⟨1, ![4096]⟩ : Shape).ShapeCasts ⟨2, ![1, 4096]⟩) (j : Fin 2048) :
    shapeCast ⟨2, ![1, 4096]⟩ (concatenate ⟨1, ![4096]⟩ 0 [⟨⟨1, ![2048]⟩, u⟩, ⟨⟨1, ![2048]⟩, v⟩] hC) hS
        (ix2 (0 : Fin 1) (⟨2048 + j.val, by omega⟩ : Fin 4096)) = v (ix1 j) := by
  rw [shapeCast_a_1a_apply]
  exact concatenate_pair_apply_right (t := ⟨1, ![4096]⟩) (s₁ := ⟨1, ![2048]⟩) (s₂ := ⟨1, ![2048]⟩) (0 : Fin 1) _ _
    hC _ rfl rfl (ix1 j) (fun b hb => match b, hb with | ⟨0, _⟩, hb => absurd rfl hb)
    (by show j.val + 2048 = 2048 + j.val; omega)

end Cert.Layouts

end
-- ==== Proof.KernelHost.lean ====
/-
  What the region finds in each window's array: the host operations before the kernel, read at coordinates.

  Window 0's array is the input reshaped to 8192 rows of 1024. Windows 1, 3, 5 hold a layer's merged weights
  [1024, 4096]: column `2048 d + j`, row `k` is direction `d`'s weight (j, k) — the two directions' matrices transposed and
  set side by side (the conversion to bf16 changes nothing on the extended reals). Windows 2, 4, 6 hold a layer's merged
  bias row [1, 4096]: at column `2048 d + j` the sum of direction `d`'s two biases at `j`.
-/
import proofs.«161337_j13580686590591_2_alg».proof.Proof.Gen.KernelIdeal.Frame
import proofs.«161337_j13580686590591_2_alg».proof.Proof.Layouts
import Idealize.ShloMosaic.Lib.StableHlo.Run
import Idealize.ShloMosaic.Lib.ValueIdx

set_option maxRecDepth 16384

noncomputable section

namespace Cert.KernelIdeal.HostSide

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The argument arrays of core `c` as functions into the extended reals. -/
abbrev A0 (c : Dev nD) : (⟨3, ![64, 128, 1024]⟩ : Shape).Idx → EReal := m ((c : Thread nD τ).loc main_arg0)
abbrev A1 (c : Dev nD) : (⟨3, ![2, 2048, 1024]⟩ : Shape).Idx → EReal := m ((c : Thread nD τ).loc main_arg1)
abbrev A3 (c : Dev nD) : (⟨2, ![2, 2048]⟩ : Shape).Idx → EReal := m ((c : Thread nD τ).loc main_arg3)
abbrev A4 (c : Dev nD) : (⟨2, ![2, 2048]⟩ : Shape).Idx → EReal := m ((c : Thread nD τ).loc main_arg4)
abbrev A5 (c : Dev nD) : (⟨4, ![2, 2, 2048, 1024]⟩ : Shape).Idx → EReal := m ((c : Thread nD τ).loc main_arg5)
abbrev A7 (c : Dev nD) : (⟨3, ![2, 2, 2048]⟩ : Shape).Idx → EReal := m ((c : Thread nD τ).loc main_arg7)
abbrev A8 (c : Dev nD) : (⟨3, ![2, 2, 2048]⟩ : Shape).Idx → EReal := m ((c : Thread nD τ).loc main_arg8)

/-- Window 0: the input as 8192 rows. -/
theorem V_v0 (c : Dev nD) : (V m c main_v0 : S8192x1024.Idx → EReal)
    = shapeCast S8192x1024 (m ((c : Thread nD τ).loc main_arg0)) shapeCasts_S64x128x1024_S8192x1024 := by
  show StableHlo.after hostOps0 (fun b => m (c, b)) (Proc.devRef .tc main_v0) = _
  after_results
  rfl

set_option maxHeartbeats 4000000

/-- Window 1: layer 0's merged weights. -/
theorem V_v8 (c : Dev nD) : (V m c main_v8 : S1024x4096.Idx → EReal)
    = truncf (F := Ideal) .bf16 (concatenate S1024x4096 1
        [⟨S1024x2048, transpose S1024x2048 [1, 0] (shapeCast S2048x1024 (extractStridedSlice S1x2048x1024 ![0, 0, 0] (m ((c : Thread nD τ).loc main_arg1)) slices_S2x2048x1024_S1x2048x1024_0_0_0) shapeCasts_S1x2048x1024_S2048x1024) transposes_S2048x1024_S1024x2048_1_0⟩,
         ⟨S1024x2048, transpose S1024x2048 [1, 0] (shapeCast S2048x1024 (extractStridedSlice S1x2048x1024 ![1, 0, 0] (m ((c : Thread nD τ).loc main_arg1)) slices_S2x2048x1024_S1x2048x1024_1_0_0) shapeCasts_S1x2048x1024_S2048x1024) transposes_S2048x1024_S1024x2048_1_0⟩]
        concatenates_S1024x2048_S1024x2048_S1024x4096_d1) bitsLt_bf16_f32 := by
  show StableHlo.after hostOps0 (fun b => m (c, b)) (Proc.devRef .tc main_v8) = _
  after_results_simp
  all_goals rfl

/-- Window 2: layer 0's merged bias. -/
theorem V_v20 (c : Dev nD) : (V m c main_v20 : S1x4096.Idx → EReal)
    = shapeCast S1x4096 (concatenate S4096 0
        [⟨S2048, addf (F := Ideal) (φ := .f32) (shapeCast S2048 (extractStridedSlice S1x2048 ![0, 0] (m ((c : Thread nD τ).loc main_arg3)) slices_S2x2048_S1x2048_0_0) shapeCasts_S1x2048_S2048)
            (shapeCast S2048 (extractStridedSlice S1x2048 ![0, 0] (m ((c : Thread nD τ).loc main_arg4)) slices_S2x2048_S1x2048_0_0) shapeCasts_S1x2048_S2048)⟩,
         ⟨S2048, addf (F := Ideal) (φ := .f32) (shapeCast S2048 (extractStridedSlice S1x2048 ![1, 0] (m ((c : Thread nD τ).loc main_arg3)) slices_S2x2048_S1x2048_1_0) shapeCasts_S1x2048_S2048)
            (shapeCast S2048 (extractStridedSlice S1x2048 ![1, 0] (m ((c : Thread nD τ).loc main_arg4)) slices_S2x2048_S1x2048_1_0) shapeCasts_S1x2048_S2048)⟩]
        concatenates_S2048_S2048_S4096_d0) shapeCasts_S4096_S1x4096 := by
  show StableHlo.after hostOps0 (fun b => m (c, b)) (Proc.devRef .tc main_v20) = _
  after_results_simp
  all_goals rfl

/-- Window 3: layer 1's merged weights. -/
theorem V_v28 (c : Dev nD) : (V m c main_v28 : S1024x4096.Idx → EReal)
    = truncf (F := Ideal) .bf16 (concatenate S1024x4096 1
        [⟨S1024x2048, transpose S1024x2048 [1, 0] (shapeCast S2048x1024 (extractStridedSlice S1x1x2048x1024 ![0, 0, 0, 0] (m ((c : Thread nD τ).loc main_arg5)) slices_S2x2x2048x1024_S1x1x2048x1024_0_0_0_0) shapeCasts_S1x1x2048x1024_S2048x1024) transposes_S2048x1024_S1024x2048_1_0⟩,
         ⟨S1024x2048, transpose S1024x2048 [1, 0] (shapeCast S2048x1024 (extractStridedSlice S1x1x2048x1024 ![0, 1, 0, 0] (m ((c : Thread nD τ).loc main_arg5)) slices_S2x2x2048x1024_S1x1x2048x1024_0_1_0_0) shapeCasts_S1x1x2048x1024_S2048x1024) transposes_S2048x1024_S1024x2048_1_0⟩]
        concatenates_S1024x2048_S1024x2048_S1024x4096_d1) bitsLt_bf16_f32 := by
  show StableHlo.after hostOps0 (fun b => m (c, b)) (Proc.devRef .tc main_v28) = _
  after_results_simp
  all_goals rfl

/-- Window 4: layer 1's merged bias. -/
theorem V_v40 (c : Dev nD) : (V m c main_v40 : S1x4096.Idx → EReal)
    = shapeCast S1x4096 (concatenate S4096 0
        [⟨S2048, addf (F := Ideal) (φ := .f32) (shapeCast S2048 (extractStridedSlice S1x1x2048 ![0, 0, 0] (m ((c : Thread nD τ).loc main_arg7)) slices_S2x2x2048_S1x1x2048_0_0_0) shapeCasts_S1x1x2048_S2048)
            (shapeCast S2048 (extractStridedSlice S1x1x2048 ![0, 0, 0] (m ((c : Thread nD τ).loc main_arg8)) slices_S2x2x2048_S1x1x2048_0_0_0) shapeCasts_S1x1x2048_S2048)⟩,
         ⟨S2048, addf (F := Ideal) (φ := .f32) (shapeCast S2048 (extractStridedSlice S1x1x2048 ![0, 1, 0] (m ((c : Thread nD τ).loc main_arg7)) slices_S2x2x2048_S1x1x2048_0_1_0) shapeCasts_S1x1x2048_S2048)
            (shapeCast S2048 (extractStridedSlice S1x1x2048 ![0, 1, 0] (m ((c : Thread nD τ).loc main_arg8)) slices_S2x2x2048_S1x1x2048_0_1_0) shapeCasts_S1x1x2048_S2048)⟩]
        concatenates_S2048_S2048_S4096_d0) shapeCasts_S4096_S1x4096 := by
  show StableHlo.after hostOps0 (fun b => m (c, b)) (Proc.devRef .tc main_v40) = _
  after_results_simp
  all_goals rfl

/-- Window 5: layer 2's merged weights. -/
theorem V_v48 (c : Dev nD) : (V m c main_v48 : S1024x4096.Idx → EReal)
    = truncf (F := Ideal) .bf16 (concatenate S1024x4096 1
        [⟨S1024x2048, transpose S1024x2048 [1, 0] (shapeCast S2048x1024 (extractStridedSlice S1x1x2048x1024 ![1, 0, 0, 0] (m ((c : Thread nD τ).loc main_arg5)) slices_S2x2x2048x1024_S1x1x2048x1024_1_0_0_0) shapeCasts_S1x1x2048x1024_S2048x1024) transposes_S2048x1024_S1024x2048_1_0⟩,
         ⟨S1024x2048, transpose S1024x2048 [1, 0] (shapeCast S2048x1024 (extractStridedSlice S1x1x2048x1024 ![1, 1, 0, 0] (m ((c : Thread nD τ).loc main_arg5)) slices_S2x2x2048x1024_S1x1x2048x1024_1_1_0_0) shapeCasts_S1x1x2048x1024_S2048x1024) transposes_S2048x1024_S1024x2048_1_0⟩]
        concatenates_S1024x2048_S1024x2048_S1024x4096_d1) bitsLt_bf16_f32 := by
  show StableHlo.after hostOps0 (fun b => m (c, b)) (Proc.devRef .tc main_v48) = _
  after_results_simp
  all_goals rfl

/-- Window 6: layer 2's merged bias. -/
theorem V_v60 (c : Dev nD) : (V m c main_v60 : S1x4096.Idx → EReal)
    = shapeCast S1x4096 (concatenate S4096 0
        [⟨S2048, addf (F := Ideal) (φ := .f32) (shapeCast S2048 (extractStridedSlice S1x1x2048 ![1, 0, 0] (m ((c : Thread nD τ).loc main_arg7)) slices_S2x2x2048_S1x1x2048_1_0_0) shapeCasts_S1x1x2048_S2048)
            (shapeCast S2048 (extractStridedSlice S1x1x2048 ![1, 0, 0] (m ((c : Thread nD τ).loc main_arg8)) slices_S2x2x2048_S1x1x2048_1_0_0) shapeCasts_S1x1x2048_S2048)⟩,
         ⟨S2048, addf (F := Ideal) (φ := .f32) (shapeCast S2048 (extractStridedSlice S1x1x2048 ![1, 1, 0] (m ((c : Thread nD τ).loc main_arg7)) slices_S2x2x2048_S1x1x2048_1_1_0) shapeCasts_S1x1x2048_S2048)
            (shapeCast S2048 (extractStridedSlice S1x1x2048 ![1, 1, 0] (m ((c : Thread nD τ).loc main_arg8)) slices_S2x2x2048_S1x1x2048_1_1_0) shapeCasts_S1x1x2048_S2048)⟩]
        concatenates_S2048_S2048_S4096_d0) shapeCasts_S4096_S1x4096 := by
  show StableHlo.after hostOps0 (fun b => m (c, b)) (Proc.devRef .tc main_v60) = _
  after_results_simp
  all_goals rfl

/-! ## By coordinates -/

/-- The merged weights of layer 0, forward half. -/
theorem v8_left (c : Dev nD) (j : Fin 2048) (k : Fin 1024) :
    (V m c main_v8 : S1024x4096.Idx → EReal) (ix2 k (⟨0 + j.val, by omega⟩ : Fin 4096)) = A1 m c (ix3 (0 : Fin 2) j k) := by
  refine (congrFun (V_v8 m c) _).trans ?_
  refine (Layouts.wcat_left (α := EReal) _ _ transposes_S2048x1024_S1024x2048_1_0 concatenates_S1024x2048_S1024x2048_S1024x4096_d1 k j).trans ?_
  exact Layouts.slab3_apply _ 0 0 rfl _ _ j k

/-- The merged weights of layer 0, backward half. -/
theorem v8_right (c : Dev nD) (j : Fin 2048) (k : Fin 1024) :
    (V m c main_v8 : S1024x4096.Idx → EReal) (ix2 k (⟨2048 + j.val, by omega⟩ : Fin 4096)) = A1 m c (ix3 (1 : Fin 2) j k) := by
  refine (congrFun (V_v8 m c) _).trans ?_
  refine (Layouts.wcat_right (α := EReal) _ _ transposes_S2048x1024_S1024x2048_1_0 concatenates_S1024x2048_S1024x2048_S1024x4096_d1 k j).trans ?_
  exact Layouts.slab3_apply _ 1 1 rfl _ _ j k

/-- The merged bias of layer 0, forward half. -/
theorem v20_left (c : Dev nD) (j : Fin 2048) :
    (V m c main_v20 : S1x4096.Idx → EReal) (ix2 (0 : Fin 1) (⟨0 + j.val, by omega⟩ : Fin 4096))
      = A3 m c (ix2 (0 : Fin 2) j) + A4 m c (ix2 (0 : Fin 2) j) := by
  refine (congrFun (V_v20 m c) _).trans ?_
  refine (Layouts.bcat_left (α := EReal) _ _ concatenates_S2048_S2048_S4096_d0 shapeCasts_S4096_S1x4096 j).trans ?_
  exact congrArg₂ (· + ·) (Layouts.vec2_apply _ 0 0 rfl _ _ j) (Layouts.vec2_apply _ 0 0 rfl _ _ j)

/-- The merged bias of layer 0, backward half. -/
theorem v20_right (c : Dev nD) (j : Fin 2048) :
    (V m c main_v20 : S1x4096.Idx → EReal) (ix2 (0 : Fin 1) (⟨2048 + j.val, by omega⟩ : Fin 4096))
      = A3 m c (ix2 (1 : Fin 2) j) + A4 m c (ix2 (1 : Fin 2) j) := by
  refine (congrFun (V_v20 m c) _).trans ?_
  refine (Layouts.bcat_right (α := EReal) _ _ concatenates_S2048_S2048_S4096_d0 shapeCasts_S4096_S1x4096 j).trans ?_
  exact congrArg₂ (· + ·) (Layouts.vec2_apply _ 1 1 rfl _ _ j) (Layouts.vec2_apply _ 1 1 rfl _ _ j)

/-- The merged weights of layer 1, forward half. -/
theorem v28_left (c : Dev nD) (j : Fin 2048) (k : Fin 1024) :
    (V m c main_v28 : S1024x4096.Idx → EReal) (ix2 k (⟨0 + j.val, by omega⟩ : Fin 4096)) = A5 m c (ix4 (0 : Fin 2) (0 : Fin 2) j k) := by
  refine (congrFun (V_v28 m c) _).trans ?_
  refine (Layouts.wcat_left (α := EReal) _ _ transposes_S2048x1024_S1024x2048_1_0 concatenates_S1024x2048_S1024x2048_S1024x4096_d1 k j).trans ?_
  exact Layouts.slab4_apply _ 0 0 0 0 rfl rfl _ _ j k

/-- The merged weights of layer 1, backward half. -/
theorem v28_right (c : Dev nD) (j : Fin 2048) (k : Fin 1024) :
    (V m c main_v28 : S1024x4096.Idx → EReal) (ix2 k (⟨2048 + j.val, by omega⟩ : Fin 4096)) = A5 m c (ix4 (0 : Fin 2) (1 : Fin 2) j k) := by
  refine (congrFun (V_v28 m c) _).trans ?_
  refine (Layouts.wcat_right (α := EReal) _ _ transposes_S2048x1024_S1024x2048_1_0 concatenates_S1024x2048_S1024x2048_S1024x4096_d1 k j).trans ?_
  exact Layouts.slab4_apply _ 0 1 0 1 rfl rfl _ _ j k

/-- The merged bias of layer 1, forward half. -/
theorem v40_left (c : Dev nD) (j : Fin 2048) :
    (V m c main_v40 : S1x4096.Idx → EReal) (ix2 (0 : Fin 1) (⟨0 + j.val, by omega⟩ : Fin 4096))
      = A7 m c (ix3 (0 : Fin 2) (0 : Fin 2) j) + A8 m c (ix3 (0 : Fin 2) (0 : Fin 2) j) := by
  refine (congrFun (V_v40 m c) _).trans ?_
  refine (Layouts.bcat_left (α := EReal) _ _ concatenates_S2048_S2048_S4096_d0 shapeCasts_S4096_S1x4096 j).trans ?_
  exact congrArg₂ (· + ·) (Layouts.vec3_apply _ 0 0 0 0 rfl rfl _ _ j) (Layouts.vec3_apply _ 0 0 0 0 rfl rfl _ _ j)

/-- The merged bias of layer 1, backward half. -/
theorem v40_right (c : Dev nD) (j : Fin 2048) :
    (V m c main_v40 : S1x4096.Idx → EReal) (ix2 (0 : Fin 1) (⟨2048 + j.val, by omega⟩ : Fin 4096))
      = A7 m c (ix3 (0 : Fin 2) (1 : Fin 2) j) + A8 m c (ix3 (0 : Fin 2) (1 : Fin 2) j) := by
  refine (congrFun (V_v40 m c) _).trans ?_
  refine (Layouts.bcat_right (α := EReal) _ _ concatenates_S2048_S2048_S4096_d0 shapeCasts_S4096_S1x4096 j).trans ?_
  exact congrArg₂ (· + ·) (Layouts.vec3_apply _ 0 1 0 1 rfl rfl _ _ j) (Layouts.vec3_apply _ 0 1 0 1 rfl rfl _ _ j)

/-- The merged weights of layer 2, forward half. -/
theorem v48_left (c : Dev nD) (j : Fin 2048) (k : Fin 1024) :
    (V m c main_v48 : S1024x4096.Idx → EReal) (ix2 k (⟨0 + j.val, by omega⟩ : Fin 4096)) = A5 m c (ix4 (1 : Fin 2) (0 : Fin 2) j k) := by
  refine (congrFun (V_v48 m c) _).trans ?_
  refine (Layouts.wcat_left (α := EReal) _ _ transposes_S2048x1024_S1024x2048_1_0 concatenates_S1024x2048_S1024x2048_S1024x4096_d1 k j).trans ?_
  exact Layouts.slab4_apply _ 1 0 1 0 rfl rfl _ _ j k

/-- The merged weights of layer 2, backward half. -/
theorem v48_right (c : Dev nD) (j : Fin 2048) (k : Fin 1024) :
    (V m c main_v48 : S1024x4096.Idx → EReal) (ix2 k (⟨2048 + j.val, by omega⟩ : Fin 4096)) = A5 m c (ix4 (1 : Fin 2) (1 : Fin 2) j k) := by
  refine (congrFun (V_v48 m c) _).trans ?_
  refine (Layouts.wcat_right (α := EReal) _ _ transposes_S2048x1024_S1024x2048_1_0 concatenates_S1024x2048_S1024x2048_S1024x4096_d1 k j).trans ?_
  exact Layouts.slab4_apply _ 1 1 1 1 rfl rfl _ _ j k

/-- The merged bias of layer 2, forward half. -/
theorem v60_left (c : Dev nD) (j : Fin 2048) :
    (V m c main_v60 : S1x4096.Idx → EReal) (ix2 (0 : Fin 1) (⟨0 + j.val, by omega⟩ : Fin 4096))
      = A7 m c (ix3 (1 : Fin 2) (0 : Fin 2) j) + A8 m c (ix3 (1 : Fin 2) (0 : Fin 2) j) := by
  refine (congrFun (V_v60 m c) _).trans ?_
  refine (Layouts.bcat_left (α := EReal) _ _ concatenates_S2048_S2048_S4096_d0 shapeCasts_S4096_S1x4096 j).trans ?_
  exact congrArg₂ (· + ·) (Layouts.vec3_apply _ 1 0 1 0 rfl rfl _ _ j) (Layouts.vec3_apply _ 1 0 1 0 rfl rfl _ _ j)

/-- The merged bias of layer 2, backward half. -/
theorem v60_right (c : Dev nD) (j : Fin 2048) :
    (V m c main_v60 : S1x4096.Idx → EReal) (ix2 (0 : Fin 1) (⟨2048 + j.val, by omega⟩ : Fin 4096))
      = A7 m c (ix3 (1 : Fin 2) (1 : Fin 2) j) + A8 m c (ix3 (1 : Fin 2) (1 : Fin 2) j) := by
  refine (congrFun (V_v60 m c) _).trans ?_
  refine (Layouts.bcat_right (α := EReal) _ _ concatenates_S2048_S2048_S4096_d0 shapeCasts_S4096_S1x4096 j).trans ?_
  exact congrArg₂ (· + ·) (Layouts.vec3_apply _ 1 1 1 1 rfl rfl _ _ j) (Layouts.vec3_apply _ 1 1 1 1 rfl rfl _ _ j)

end Cert.KernelIdeal.HostSide

end
-- ==== Proof.KernelNet.lean ====
/-
  The kernel's output array is the specification's matrix `G` of the arguments.

  A grid point handles a tile of 512 rows: block t of the output is rows 512 t … 512 t + 511, and the input block at
  that point is the same rows of the reshaped input; every weight and bias window is its whole array at every point. On
  a tile the body is three nested layers, so row by row it is the specification's `net`; the sixteen tiles cover the
  8192 rows, so the whole array is `G`. The host line after the kernel reshapes that matrix to [64, 128, 1024].
-/
import proofs.«161337_j13580686590591_2_alg».proof.Proof.Gen.KernelIdeal.Frame
import proofs.«161337_j13580686590591_2_alg».proof.Proof.KernelLayer
import proofs.«161337_j13580686590591_2_alg».proof.Proof.KernelHost
import proofs.«161337_j13580686590591_2_alg».proof.Proof.Spec
import Idealize.ShloMosaic.Lib.Pipeline.Value
import Idealize.ShloMosaic.Lib.StableHlo.Run

set_option maxRecDepth 16384

noncomputable section

namespace Cert.KernelIdeal.Net

open Idealize.ShloMosaic Idealize.ShloMosaic.ValueIdx Idealize.ShloMosaic.TcCoe Idealize.SL.Sem Idealize.ShloMosaic.StableHlo
open Idealize.ShloMosaic.Pipeline (Dat)
open Cert.KernelIdeal Cert.KernelIdeal.Gen Cert.KernelIdeal.Layer Cert.KernelIdeal.HostSide Cert.Lstm

/-- Three nested layers on a tile are the specification's matrix at the matching row: when the tile's row `y 0` is the
    matrix's row `i 0`, the columns agree, and each merged parameter window holds the two directions' parameters. -/
theorem tile_eq_G (x0 : Vec Ideal S512x1024 .f32) (x1 : Vec Ideal S1024x4096 .bf16) (x2 : Vec Ideal S1x4096 .f32)
    (x3 : Vec Ideal S1024x4096 .bf16) (x4 : Vec Ideal S1x4096 .f32) (x5 : Vec Ideal S1024x4096 .bf16) (x6 : Vec Ideal S1x4096 .f32)
    (X : (⟨2, ![8192, 1024]⟩ : Shape).Idx → EReal)
    (a1 : (⟨3, ![2, 2048, 1024]⟩ : Shape).Idx → EReal) (a3 a4 : (⟨2, ![2, 2048]⟩ : Shape).Idx → EReal)
    (a5 : (⟨4, ![2, 2, 2048, 1024]⟩ : Shape).Idx → EReal) (a7 a8 : (⟨3, ![2, 2, 2048]⟩ : Shape).Idx → EReal)
    (hw0l : ∀ (j : Fin 2048) (k : Fin 1024), x1 (ix2 k (⟨0 + j.val, by omega⟩ : Fin 4096)) = a1 (ix3 (0 : Fin 2) j k))
    (hw0r : ∀ (j : Fin 2048) (k : Fin 1024), x1 (ix2 k (⟨2048 + j.val, by omega⟩ : Fin 4096)) = a1 (ix3 (1 : Fin 2) j k))
    (hb0l : ∀ j : Fin 2048, x2 (ix2 (0 : Fin 1) (⟨0 + j.val, by omega⟩ : Fin 4096)) = a3 (ix2 (0 : Fin 2) j) + a4 (ix2 (0 : Fin 2) j))
    (hb0r : ∀ j : Fin 2048, x2 (ix2 (0 : Fin 1) (⟨2048 + j.val, by omega⟩ : Fin 4096)) = a3 (ix2 (1 : Fin 2) j) + a4 (ix2 (1 : Fin 2) j))
    (hw1l : ∀ (j : Fin 2048) (k : Fin 1024), x3 (ix2 k (⟨0 + j.val, by omega⟩ : Fin 4096)) = a5 (ix4 (0 : Fin 2) (0 : Fin 2) j k))
    (hw1r : ∀ (j : Fin 2048) (k : Fin 1024), x3 (ix2 k (⟨2048 + j.val, by omega⟩ : Fin 4096)) = a5 (ix4 (0 : Fin 2) (1 : Fin 2) j k))
    (hb1l : ∀ j : Fin 2048, x4 (ix2 (0 : Fin 1) (⟨0 + j.val, by omega⟩ : Fin 4096)) = a7 (ix3 (0 : Fin 2) (0 : Fin 2) j) + a8 (ix3 (0 : Fin 2) (0 : Fin 2) j))
    (hb1r : ∀ j : Fin 2048, x4 (ix2 (0 : Fin 1) (⟨2048 + j.val, by omega⟩ : Fin 4096)) = a7 (ix3 (0 : Fin 2) (1 : Fin 2) j) + a8 (ix3 (0 : Fin 2) (1 : Fin 2) j))
    (hw2l : ∀ (j : Fin 2048) (k : Fin 1024), x5 (ix2 k (⟨0 + j.val, by omega⟩ : Fin 4096)) = a5 (ix4 (1 : Fin 2) (0 : Fin 2) j k))
    (hw2r : ∀ (j : Fin 2048) (k : Fin 1024), x5 (ix2 k (⟨2048 + j.val, by omega⟩ : Fin 4096)) = a5 (ix4 (1 : Fin 2) (1 : Fin 2) j k))
    (hb2l : ∀ j : Fin 2048, x6 (ix2 (0 : Fin 1) (⟨0 + j.val, by omega⟩ : Fin 4096)) = a7 (ix3 (1 : Fin 2) (0 : Fin 2) j) + a8 (ix3 (1 : Fin 2) (0 : Fin 2) j))
    (hb2r : ∀ j : Fin 2048, x6 (ix2 (0 : Fin 1) (⟨2048 + j.val, by omega⟩ : Fin 4096)) = a7 (ix3 (1 : Fin 2) (1 : Fin 2) j) + a8 (ix3 (1 : Fin 2) (1 : Fin 2) j))
    (y : S512x1024.Idx) (i : (⟨2, ![8192, 1024]⟩ : Shape).Idx)
    (hcol : i 1 = y 1) (hx : ∀ k : Fin 1024, x0 (ix2 (y 0) k) = X (ix2 (i 0) k)) :
    KOut (KGates (KOut (KGates (KOut (KGates x0 x1 x2)) x3 x4)) x5 x6) y = G X a1 a3 a4 a5 a7 a8 i := by
  obtain ⟨r, col, rfl⟩ : ∃ (r : Fin 512) (col : Fin 1024), y = ix2 r col := ⟨y 0, y 1, eq_ix2 y⟩
  rw [layer_apply _ x5 x6 (fun d j k => a5 (ix4 (1 : Fin 2) d j k)) (fun d j => a7 (ix3 (1 : Fin 2) d j))
    (fun d j => a8 (ix3 (1 : Fin 2) d j)) hw2l hw2r hb2l hb2r r col]
  unfold G net
  rw [hcol]
  congr 1
  funext k
  rw [layer_apply _ x3 x4 (fun d j k => a5 (ix4 (0 : Fin 2) d j k)) (fun d j => a7 (ix3 (0 : Fin 2) d j))
    (fun d j => a8 (ix3 (0 : Fin 2) d j)) hw1l hw1r hb1l hb1r r k]
  congr 1
  funext k'
  rw [layer_apply x0 x1 x2 (fun d j k => a1 (ix3 d j k)) (fun d j => a3 (ix2 d j)) (fun d j => a4 (ix2 d j)) hw0l hw0r hb0l hb0r r k']
  congr 1
  funext k''
  exact hx k''

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the sixteen grid points: the output's and the input's block row is the point's
    number, every other block coordinate is zero. -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A weight window's block is its whole array, at every point. -/
theorem iblk1 (c : Dev nD) (t : Fin cfg0.N) (y : S1024x4096.Idx) : iblk m c 1 t y = (V m c main_v8 : S1024x4096.Idx → EReal) y := by
  obtain ⟨-, -, -, -, e0, e1, -⟩ := idx_facts t
  show V m c main_v8 (((cfg0.win 1).blk t).view.emb y) = V m c main_v8 y
  refine congrArg (V m c main_v8 : S1024x4096.Idx → EReal) (funext fun a => Fin.ext ?_)
  match a with
  | ⟨0, _⟩ => show win0_1.index t (0 : Fin 2) * 1024 + 1 * (y 0).val = (y 0).val; rw [e0]; omega
  | ⟨1, _⟩ => show win0_1.index t (1 : Fin 2) * 4096 + 1 * (y 1).val = (y 1).val; rw [e1]; omega

theorem iblk3 (c : Dev nD) (t : Fin cfg0.N) (y : S1024x4096.Idx) : iblk m c 3 t y = (V m c main_v28 : S1024x4096.Idx → EReal) y := by
  obtain ⟨-, -, -, -, -, -, -, -, e0, e1, -⟩ := idx_facts t
  show V m c main_v28 (((cfg0.win 3).blk t).view.emb y) = V m c main_v28 y
  refine congrArg (V m c main_v28 : S1024x4096.Idx → EReal) (funext fun a => Fin.ext ?_)
  match a with
  | ⟨0, _⟩ => show win0_3.index t (0 : Fin 2) * 1024 + 1 * (y 0).val = (y 0).val; rw [e0]; omega
  | ⟨1, _⟩ => show win0_3.index t (1 : Fin 2) * 4096 + 1 * (y 1).val = (y 1).val; rw [e1]; omega

theorem iblk5 (c : Dev nD) (t : Fin cfg0.N) (y : S1024x4096.Idx) : iblk m c 5 t y = (V m c main_v48 : S1024x4096.Idx → EReal) y := by
  obtain ⟨-, -, -, -, -, -, -, -, -, -, -, -, e0, e1, -⟩ := idx_facts t
  show V m c main_v48 (((cfg0.win 5).blk t).view.emb y) = V m c main_v48 y
  refine congrArg (V m c main_v48 : S1024x4096.Idx → EReal) (funext fun a => Fin.ext ?_)
  match a with
  | ⟨0, _⟩ => show win0_5.index t (0 : Fin 2) * 1024 + 1 * (y 0).val = (y 0).val; rw [e0]; omega
  | ⟨1, _⟩ => show win0_5.index t (1 : Fin 2) * 4096 + 1 * (y 1).val = (y 1).val; rw [e1]; omega

/-- A bias window's block is its whole row, at every point. -/
theorem iblk2 (c : Dev nD) (t : Fin cfg0.N) (y : S1x4096.Idx) : iblk m c 2 t y = (V m c main_v20 : S1x4096.Idx → EReal) y := by
  obtain ⟨-, -, -, -, -, -, e0, e1, -⟩ := idx_facts t
  show V m c main_v20 (((cfg0.win 2).blk t).view.emb y) = V m c main_v20 y
  refine congrArg (V m c main_v20 : S1x4096.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 4096 + 1 * (y 1).val = (y 1).val; rw [e1]; omega

theorem iblk4 (c : Dev nD) (t : Fin cfg0.N) (y : S1x4096.Idx) : iblk m c 4 t y = (V m c main_v40 : S1x4096.Idx → EReal) y := by
  obtain ⟨-, -, -, -, -, -, -, -, -, -, e0, e1, -⟩ := idx_facts t
  show V m c main_v40 (((cfg0.win 4).blk t).view.emb y) = V m c main_v40 y
  refine congrArg (V m c main_v40 : S1x4096.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 4096 + 1 * (y 1).val = (y 1).val; rw [e1]; omega

theorem iblk6 (c : Dev nD) (t : Fin cfg0.N) (y : S1x4096.Idx) : iblk m c 6 t y = (V m c main_v60 : S1x4096.Idx → EReal) y := by
  obtain ⟨-, -, -, -, -, -, -, -, -, -, -, -, -, -, e0, e1⟩ := idx_facts t
  show V m c main_v60 (((cfg0.win 6).blk t).view.emb y) = V m c main_v60 y
  refine congrArg (V m c main_v60 : S1x4096.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 4096 + 1 * (y 1).val = (y 1).val; rw [e1]; omega

/-- The specification's matrix of core `c`'s arrays as the region finds them. -/
abbrev Gc (c : Dev nD) : S8192x1024.Idx → EReal :=
  G (V m c main_v0 : S8192x1024.Idx → EReal) (A1 m c) (A3 m c) (A4 m c) (A5 m c) (A7 m c) (A8 m c)

/-- What point `t` writes back is block `t` of that matrix. -/
theorem flushed_eq (c : Dev nD) (t : Fin cfg0.N) :
    (dats m 0 c).flushed 7 t = ((cfg0.win 7).blk t).view.read (Elt Ideal) (Gc m c) := by
  show (cfg0.win 7).cut (grid0.coords t) ((dats m 0 c).after 7 t) = _
  rw [after0_7]
  unfold out0_7
  rw [View.canon_unit_zero hz]
  simp only [View.ld_unit_zero (S := S512x1024) hz, View.ld_unit_zero (S := S1024x4096) hz, View.ld_unit_zero (S := S1x4096) hz]
  obtain ⟨e70, e71, e00, e01, -⟩ := idx_facts t
  funext y
  show KOut (KGates (KOut (KGates (KOut (KGates (shapeCast S512x1024 (iblk m c 0 t) shapeCasts_S512x1024_S512x1024) (iblk m c 1 t) (iblk m c 2 t)))
      (iblk m c 3 t) (iblk m c 4 t))) (iblk m c 5 t) (iblk m c 6 t)) y = Gc m c (((cfg0.win 7).blk t).view.emb y)
  rw [shapeCast_self]
  refine tile_eq_G (iblk m c 0 t) (iblk m c 1 t) (iblk m c 2 t) (iblk m c 3 t) (iblk m c 4 t) (iblk m c 5 t) (iblk m c 6 t)
    (V m c main_v0 : S8192x1024.Idx → EReal) (A1 m c) (A3 m c) (A4 m c) (A5 m c) (A7 m c) (A8 m c)
    (fun j k => (iblk1 m c t _).trans (v8_left m c j k)) (fun j k => (iblk1 m c t _).trans (v8_right m c j k))
    (fun j => (iblk2 m c t _).trans (v20_left m c j)) (fun j => (iblk2 m c t _).trans (v20_right m c j))
    (fun j k => (iblk3 m c t _).trans (v28_left m c j k)) (fun j k => (iblk3 m c t _).trans (v28_right m c j k))
    (fun j => (iblk4 m c t _).trans (v40_left m c j)) (fun j => (iblk4 m c t _).trans (v40_right m c j))
    (fun j k => (iblk5 m c t _).trans (v48_left m c j k)) (fun j k => (iblk5 m c t _).trans (v48_right m c j k))
    (fun j => (iblk6 m c t _).trans (v60_left m c j)) (fun j => (iblk6 m c t _).trans (v60_right m c j))
    y (((cfg0.win 7).blk t).view.emb y) ?_ ?_
  · apply Fin.ext
    show win0_7.index t (1 : Fin 2) * 1024 + 1 * (y 1).val = (y 1).val
    rw [e71]; omega
  · intro k
    show V m c main_v0 (((cfg0.win 0).blk t).view.emb (ix2 (y 0) k)) = V m c main_v0 (ix2 ((((cfg0.win 7).blk t).view.emb y) 0) k)
    refine congrArg (V m c main_v0 : S8192x1024.Idx → EReal) (funext fun a => Fin.ext ?_)
    match a with
    | ⟨0, _⟩ => show win0_0.index t (0 : Fin 2) * 512 + 1 * (y 0).val = win0_7.index t (0 : Fin 2) * 512 + 1 * (y 0).val; rw [e00, e70]
    | ⟨1, _⟩ => show win0_0.index t (1 : Fin 2) * 1024 + 1 * k.val = k.val; rw [e01]; omega

/-- An index of the array is in point `t`'s block iff each coordinate is in the block's range on its axis. -/
theorem mem_blk (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v61).slice (win0_7.rect t)).set ↔ _
  rw [View.set_slice_whole, Rect.mem_set_unit]
  exact Iff.rfl

/-- The sixteen blocks cover the array: row `R` is in the block of point `R / 512`. -/
theorem cover (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  refine ⟨⟨(i 0).val / 512, by show (i 0).val / 512 < 16; omega⟩, flush0_7 _, ?_⟩
  rw [mem_blk]
  obtain ⟨e70, e71, -⟩ := idx_facts ⟨(i 0).val / 512, by show (i 0).val / 512 < 16; omega⟩
  intro a
  match a with
  | ⟨0, _⟩ =>
    show win0_7.index _ (0 : Fin 2) * 512 ≤ (i 0).val ∧ (i 0).val < win0_7.index _ (0 : Fin 2) * 512 + 512
    rw [e70]; show (i 0).val / 512 * 512 ≤ (i 0).val ∧ (i 0).val < (i 0).val / 512 * 512 + 512; omega
  | ⟨1, _⟩ =>
    show win0_7.index _ (1 : Fin 2) * 1024 ≤ (i 1).val ∧ (i 1).val < win0_7.index _ (1 : Fin 2) * 1024 + 1024
    rw [e71]; omega

/-- The output array after the run is the specification's matrix. -/
theorem final (c : Dev nD) : (dats m 0 c).arrAt 7 cfg0.N = Gc m c :=
  (dats m 0 c).arrAt_eq_of_cover 7 (Gc m c) (fun t _ => flushed_eq m c t) (cover)

/-- The host line after the kernel reshapes the output array: the program's result is the specification's matrix as
    [64, 128, 1024]. -/
theorem tail_eq (c : Dev nD) :
    (Pipeline.afterTail₀ cfgs (dats m) 0 (V0 m) [hostOps1] c main_v62 : S64x128x1024.Idx → EReal)
      = shapeCast S64x128x1024 (Gc m c) shapeCasts_S8192x1024_S64x128x1024 := by
  unfold Pipeline.afterTail₀
  show StableHlo.after hostOps1 _ (Proc.devRef .tc main_v62) = _
  after_results
  have e : (Pipeline.withArrays (cfgs 0).spec c (V0 m c) (fun w => (dats m 0 c).arrAt w (cfgs 0).N) (Proc.devRef .tc main_v61)
      : S8192x1024.Idx → EReal) = Gc m c :=
    (Pipeline.withArrays_arr (cfgs 0).spec launch0.win.arr_inj c _ _ 7).trans (final m c)
  funext i
  show shapeCast S64x128x1024 (Pipeline.withArrays (cfgs 0).spec c (V0 m c) (fun w => (dats m 0 c).arrAt w (cfgs 0).N)
    (Proc.devRef .tc main_v61)) shapeCasts_S8192x1024_S64x128x1024 i = _
  exact congrFun (congrArg (fun a : S8192x1024.Idx → EReal => shapeCast S64x128x1024 a shapeCasts_S8192x1024_S64x128x1024) e) i

/-- The program's result as a function of core `c`'s argument arrays. -/
abbrev Res (c : Dev nD) : S64x128x1024.Idx → EReal :=
  shapeCast S64x128x1024
    (G (shapeCast S8192x1024 (A0 m c) shapeCasts_S64x128x1024_S8192x1024) (A1 m c) (A3 m c) (A4 m c) (A5 m c) (A7 m c) (A8 m c))
    shapeCasts_S8192x1024_S64x128x1024

theorem tail_res (c : Dev nD) :
    (Pipeline.afterTail₀ cfgs (dats m) 0 (V0 m) [hostOps1] c main_v62 : S64x128x1024.Idx → EReal) = Res m c := by
  rw [tail_eq]
  unfold Gc Res
  rw [V_v0]

/-- Every weakly fair execution of the idealized kernel program terminates with its result at `Res` of the arguments and the
    arguments unchanged. -/
theorem run : θ_run defs (onTc (τ := τ) (main (F := Ideal))) ⟨m, fun _ => 0, ρ⟩ fun r => ∀ c : Dev nD,
      r.2.mem ((c.tc : Thread nD τ).loc main_v62) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v62 (Pipeline.mem_restRefs_of main_v62 (by decide) (by decide))).trans (tail_res m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Net

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RefLayer.lean ====
/-
  One layer of the reference as a function of arrays, and its value at a coordinate.

  For each direction the reference multiplies all 8192 rows by the transposed weight matrix of that direction, adds the
  input bias and then the hidden bias (each a vector broadcast over the rows), cuts the 2048 gate columns into the slabs
  i, f, g, o and forms σ(o) · tanh (σ(i) · tanh g), with σ spelt 1 / (1 + e^(-x)); the two directions are concatenated along
  the columns. Here that computation is named (`RGates`, `RCell`, `ROut`), the reference run's named intermediate terms
  are shown to be its compositions, and at the extended reals its value at row r, column c is the specification's
  `layerRow` of row r of the layer's input.
-/
import proofs.«161337_j13580686590591_2_alg».proof.Proof.Gen.ReferenceIdeal.Run
import proofs.«161337_j13580686590591_2_alg».proof.Proof.Spec
import proofs.«161337_j13580686590591_2_alg».proof.Proof.LibHostMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Layer

open Idealize.ShloMosaic Idealize.ShloMosaic.ValueIdx Idealize.ShloMosaic.TcCoe Cert.ReferenceIdeal Cert.ReferenceIdeal.Gen Cert.Lstm

section Generic
variable {F : FTy → Type} [FloatOps F]

/-- One direction's gate pre-activations of all rows: the rows times the transposed weights, plus the two bias vectors. -/
def RGates (inp : FVec F S8192x1024 .f32) (W : FVec F S2048x1024 .f32) (bi bh : FVec F S2048 .f32) : FVec F S8192x2048 .f32 :=
  addf (addf (Host.dotGeneral dot_S8192x1024_S1024x2048_S8192x2048_1_0_0_1_n_n none inp
        (transpose S1024x2048 [1, 0] W transposes_S2048x1024_S1024x2048_1_0))
      (broadcastInDim S8192x2048 ![0, 1] bcast_S1x2048_S8192x2048_0_1 (broadcastInDim S1x2048 ![1] bcast_S2048_S1x2048_1 bi)))
    (broadcastInDim S8192x2048 ![0, 1] bcast_S1x2048_S8192x2048_0_1 (broadcastInDim S1x2048 ![1] bcast_S2048_S1x2048_1 bh))

/-- One direction's hidden values from its 2048 gate columns. -/
def RCell (z : FVec F S8192x2048 .f32) : FVec F S8192x512 .f32 :=
  mulf (Host.divf (broadcastInDim S8192x512 ![] bcast_S_S8192x512 (constant S_ .f32 0x3F800000#32))
      (addf (broadcastInDim S8192x512 ![] bcast_S_S8192x512 (constant S_ .f32 0x3F800000#32))
        (Host.exp (Host.negf (extractStridedSlice S8192x512 ![0, 1536] z slices_S8192x2048_S8192x512_0_1536)))))
    (Host.tanh (mulf (Host.divf (broadcastInDim S8192x512 ![] bcast_S_S8192x512 (constant S_ .f32 0x3F800000#32))
        (addf (broadcastInDim S8192x512 ![] bcast_S_S8192x512 (constant S_ .f32 0x3F800000#32))
          (Host.exp (Host.negf (extractStridedSlice S8192x512 ![0, 0] z slices_S8192x2048_S8192x512_0_0)))))
      (Host.tanh (extractStridedSlice S8192x512 ![0, 1024] z slices_S8192x2048_S8192x512_0_1024))))

/-- The two directions' hidden values side by side. -/
def ROut (zf zb : FVec F S8192x2048 .f32) : FVec F S8192x1024 .f32 :=
  concatenate S8192x1024 1 [⟨S8192x512, RCell zf⟩, ⟨S8192x512, RCell zb⟩] concatenates_S8192x512_S8192x512_S8192x1024_d1

end Generic

/-! ## At the extended reals, by coordinates -/

/-- A vector broadcast to one row and then to every row reads, at `(r, j)`, the vector at `j`. -/
theorem bias_apply (v : FVec Ideal S2048 .f32) (r : Fin 8192) (j : Fin 2048) :
    broadcastInDim S8192x2048 ![0, 1] bcast_S1x2048_S8192x2048_0_1 (broadcastInDim S1x2048 ![1] bcast_S2048_S1x2048_1 v) (ix2 r j)
      = v (ix1 j) := by
  refine (broadcastInDim_apply (s := S1x2048) (t := S8192x2048) ![0, 1] bcast_S1x2048_S8192x2048_0_1 _ (ix2 r j)
    (ix2 (0 : Fin 1) j) (fun a => match a with | ⟨0, _⟩ => rfl | ⟨1, _⟩ => rfl)).trans ?_
  exact LibHostMatmulNN.broadcastInDim_b_ab_apply (a := 1) (b := 2048) ![1] bcast_S2048_S1x2048_1 rfl v 0 j

/-- The gates at row `r`, column `j`. -/
theorem RGates_apply (inp : FVec Ideal S8192x1024 .f32) (W : FVec Ideal S2048x1024 .f32) (bi bh : FVec Ideal S2048 .f32)
    (r : Fin 8192) (j : Fin 2048) :
    RGates inp W bi bh (ix2 r j) = (∑ k : Fin 1024, inp (ix2 r k) * W (ix2 j k)) + bi (ix1 j) + bh (ix1 j) := by
  unfold RGates
  rw [addf_apply, addf_apply, bias_apply, bias_apply, LibHostMatmulNN.hostDot_nn_apply _ rfl rfl rfl rfl rfl rfl]
  congr 2
  refine Finset.sum_congr rfl fun k _ => ?_
  rw [transpose_ix2_apply]

/-- One direction's hidden value at row `r`, position `q`: the host's 1 / (1 + e^(-x)) is the logistic function. -/
theorem RCell_apply (z : FVec Ideal S8192x2048 .f32) (r : Fin 8192) (q : Fin 512) :
    RCell z (ix2 r q) = cell (fun j => z (ix2 r j)) q := by
  unfold RCell cell
  show Ideal.div (Ideal.ofBits .f32 0x3F800000#32) (Ideal.ofBits .f32 0x3F800000#32
        + Ideal.exp (-(extractStridedSlice S8192x512 ![0, 1536] z _ (ix2 r q))))
      * Ideal.tanh (Ideal.div (Ideal.ofBits .f32 0x3F800000#32) (Ideal.ofBits .f32 0x3F800000#32
        + Ideal.exp (-(extractStridedSlice S8192x512 ![0, 0] z _ (ix2 r q))))
        * Ideal.tanh (extractStridedSlice S8192x512 ![0, 1024] z _ (ix2 r q))) = _
  rw [host_logistic, host_logistic, slice2_axis1_eq, slice2_axis1_eq, slice2_axis1_eq]

/-- The layer's output at row `r`, column `col`. -/
theorem ROut_apply (zf zb : FVec Ideal S8192x2048 .f32) (r : Fin 8192) (col : Fin 1024) :
    ROut zf zb (ix2 r col)
      = if h : col.val < 512 then cell (fun j => zf (ix2 r j)) ⟨col.val, h⟩
        else cell (fun j => zb (ix2 r j)) ⟨col.val - 512, by omega⟩ := by
  unfold ROut
  split
  · next h =>
    refine (concatenate_pair_apply_left (t := S8192x1024) (s₁ := S8192x512) (s₂ := S8192x512) (1 : Fin 2) _ _
      concatenates_S8192x512_S8192x512_S8192x1024_d1 (ix2 r col) rfl (ix2 r (⟨col.val, h⟩ : Fin 512))
      (fun b => match b with | ⟨0, _⟩ => rfl | ⟨1, _⟩ => rfl)).trans ?_
    rw [RCell_apply]
  · next h =>
    refine (concatenate_pair_apply_right (t := S8192x1024) (s₁ := S8192x512) (s₂ := S8192x512) (1 : Fin 2) _ _
      concatenates_S8192x512_S8192x512_S8192x1024_d1 (ix2 r col) rfl rfl (ix2 r (⟨col.val - 512, by omega⟩ : Fin 512))
      (fun b hb => match b, hb with | ⟨0, _⟩, _ => rfl | ⟨1, _⟩, hb => absurd rfl hb)
      (by show col.val - 512 + 512 = col.val; omega)).trans ?_
    rw [RCell_apply]

/-- A whole layer, at row `r`, column `col`, is the specification's layer on row `r` of its input. -/
theorem layer_apply (inp : FVec Ideal S8192x1024 .f32) (W0 W1 : FVec Ideal S2048x1024 .f32) (bi0 bh0 bi1 bh1 : FVec Ideal S2048 .f32)
    (W : Fin 2 → Fin 2048 → Fin 1024 → EReal) (bi bh : Fin 2 → Fin 2048 → EReal)
    (hW0 : ∀ (j : Fin 2048) (k : Fin 1024), W0 (ix2 j k) = W 0 j k) (hW1 : ∀ (j : Fin 2048) (k : Fin 1024), W1 (ix2 j k) = W 1 j k)
    (hbi0 : ∀ j : Fin 2048, bi0 (ix1 j) = bi 0 j) (hbh0 : ∀ j : Fin 2048, bh0 (ix1 j) = bh 0 j)
    (hbi1 : ∀ j : Fin 2048, bi1 (ix1 j) = bi 1 j) (hbh1 : ∀ j : Fin 2048, bh1 (ix1 j) = bh 1 j)
    (r : Fin 8192) (col : Fin 1024) :
    ROut (RGates inp W0 bi0 bh0) (RGates inp W1 bi1 bh1) (ix2 r col) = layerRow (fun k => inp (ix2 r k)) W bi bh col := by
  rw [ROut_apply]
  unfold layerRow
  split
  · congr 1
    funext j
    rw [RGates_apply, hbi0, hbh0]
    unfold gates
    congr 3
    funext k
    rw [hW0]
  · congr 1
    funext j
    rw [RGates_apply, hbi1, hbh1]
    unfold gates
    congr 3
    funext k
    rw [hW1]

end Cert.ReferenceIdeal.Layer

end
-- ==== Proof.RefNet.lean ====
/-
  The reference's result, before its final reshape, is the specification's matrix `G` of the arguments.

  The run's named intermediate terms are three nested layers: each layer's two directions take the previous layer's
  output (the reshaped input for the first), one slab of the stacked weights and one of each stacked bias. Row by row
  that is the specification's `net`.
-/
import proofs.«161337_j13580686590591_2_alg».proof.Proof.RefLayer
import proofs.«161337_j13580686590591_2_alg».proof.Proof.Layouts

set_option maxRecDepth 16384

noncomputable section

namespace Cert.ReferenceIdeal.Net

open Idealize.ShloMosaic Idealize.ShloMosaic.ValueIdx Idealize.ShloMosaic.TcCoe Cert.ReferenceIdeal Cert.ReferenceIdeal.Gen
open Cert.ReferenceIdeal.Value Cert.ReferenceIdeal.Layer Cert.Lstm

variable (V0 : Valuation τ sig (Elt Ideal))

/-- The first layer's forward gates. -/
theorem v14_eq : res_main_v14 V0 = RGates (res_main_v0 V0)
    (shapeCast _ (extractStridedSlice S1x2048x1024 ![0, 0, 0] (V0 (Proc.devRef .tc main_arg1)) slices_S2x2048x1024_S1x2048x1024_0_0_0) shapeCasts_S1x2048x1024_S2048x1024)
    (shapeCast _ (extractStridedSlice S1x2048 ![0, 0] (V0 (Proc.devRef .tc main_arg3)) slices_S2x2048_S1x2048_0_0) shapeCasts_S1x2048_S2048)
    (shapeCast _ (extractStridedSlice S1x2048 ![0, 0] (V0 (Proc.devRef .tc main_arg4)) slices_S2x2048_S1x2048_0_0) shapeCasts_S1x2048_S2048) := rfl

/-- The first layer's backward gates. -/
theorem v48_eq : res_main_v48 V0 = RGates (res_main_v0 V0)
    (shapeCast _ (extractStridedSlice S1x2048x1024 ![1, 0, 0] (V0 (Proc.devRef .tc main_arg1)) slices_S2x2048x1024_S1x2048x1024_1_0_0) shapeCasts_S1x2048x1024_S2048x1024)
    (shapeCast _ (extractStridedSlice S1x2048 ![1, 0] (V0 (Proc.devRef .tc main_arg3)) slices_S2x2048_S1x2048_1_0) shapeCasts_S1x2048_S2048)
    (shapeCast _ (extractStridedSlice S1x2048 ![1, 0] (V0 (Proc.devRef .tc main_arg4)) slices_S2x2048_S1x2048_1_0) shapeCasts_S1x2048_S2048) := rfl

/-- The first layer's output. -/
theorem v69_eq : res_main_v69 V0 = ROut (res_main_v14 V0) (res_main_v48 V0) := rfl

/-- The second layer's gates. -/
theorem v83_eq : res_main_v83 V0 = RGates (res_main_v69 V0)
    (shapeCast _ (extractStridedSlice S1x1x2048x1024 ![0, 0, 0, 0] (V0 (Proc.devRef .tc main_arg5)) slices_S2x2x2048x1024_S1x1x2048x1024_0_0_0_0) shapeCasts_S1x1x2048x1024_S2048x1024)
    (shapeCast _ (extractStridedSlice S1x1x2048 ![0, 0, 0] (V0 (Proc.devRef .tc main_arg7)) slices_S2x2x2048_S1x1x2048_0_0_0) shapeCasts_S1x1x2048_S2048)
    (shapeCast _ (extractStridedSlice S1x1x2048 ![0, 0, 0] (V0 (Proc.devRef .tc main_arg8)) slices_S2x2x2048_S1x1x2048_0_0_0) shapeCasts_S1x1x2048_S2048) := rfl

theorem v117_eq : res_main_v117 V0 = RGates (res_main_v69 V0)
    (shapeCast _ (extractStridedSlice S1x1x2048x1024 ![0, 1, 0, 0] (V0 (Proc.devRef .tc main_arg5)) slices_S2x2x2048x1024_S1x1x2048x1024_0_1_0_0) shapeCasts_S1x1x2048x1024_S2048x1024)
    (shapeCast _ (extractStridedSlice S1x1x2048 ![0, 1, 0] (V0 (Proc.devRef .tc main_arg7)) slices_S2x2x2048_S1x1x2048_0_1_0) shapeCasts_S1x1x2048_S2048)
    (shapeCast _ (extractStridedSlice S1x1x2048 ![0, 1, 0] (V0 (Proc.devRef .tc main_arg8)) slices_S2x2x2048_S1x1x2048_0_1_0) shapeCasts_S1x1x2048_S2048) := rfl

/-- The second layer's output. -/
theorem v138_eq : res_main_v138 V0 = ROut (res_main_v83 V0) (res_main_v117 V0) := rfl

/-- The third layer's gates. -/
theorem v152_eq : res_main_v152 V0 = RGates (res_main_v138 V0)
    (shapeCast _ (extractStridedSlice S1x1x2048x1024 ![1, 0, 0, 0] (V0 (Proc.devRef .tc main_arg5)) slices_S2x2x2048x1024_S1x1x2048x1024_1_0_0_0) shapeCasts_S1x1x2048x1024_S2048x1024)
    (shapeCast _ (extractStridedSlice S1x1x2048 ![1, 0, 0] (V0 (Proc.devRef .tc main_arg7)) slices_S2x2x2048_S1x1x2048_1_0_0) shapeCasts_S1x1x2048_S2048)
    (shapeCast _ (extractStridedSlice S1x1x2048 ![1, 0, 0] (V0 (Proc.devRef .tc main_arg8)) slices_S2x2x2048_S1x1x2048_1_0_0) shapeCasts_S1x1x2048_S2048) := rfl

theorem v186_eq : res_main_v186 V0 = RGates (res_main_v138 V0)
    (shapeCast _ (extractStridedSlice S1x1x2048x1024 ![1, 1, 0, 0] (V0 (Proc.devRef .tc main_arg5)) slices_S2x2x2048x1024_S1x1x2048x1024_1_1_0_0) shapeCasts_S1x1x2048x1024_S2048x1024)
    (shapeCast _ (extractStridedSlice S1x1x2048 ![1, 1, 0] (V0 (Proc.devRef .tc main_arg7)) slices_S2x2x2048_S1x1x2048_1_1_0) shapeCasts_S1x1x2048_S2048)
    (shapeCast _ (extractStridedSlice S1x1x2048 ![1, 1, 0] (V0 (Proc.devRef .tc main_arg8)) slices_S2x2x2048_S1x1x2048_1_1_0) shapeCasts_S1x1x2048_S2048) := rfl

/-- The first layer's output, at row `R`. -/
theorem row1 (R : Fin 8192) (k : Fin 1024) :
    res_main_v69 V0 (ix2 R k) = layerRow (fun k' => res_main_v0 V0 (ix2 R k'))
      (fun d j k => V0 (Proc.devRef .tc main_arg1) (ix3 d j k)) (fun d j => V0 (Proc.devRef .tc main_arg3) (ix2 d j))
      (fun d j => V0 (Proc.devRef .tc main_arg4) (ix2 d j)) k := by
  rw [v69_eq, v14_eq, v48_eq]
  exact layer_apply _ _ _ _ _ _ _ _ _ _
    (fun j k => Layouts.slab3_apply _ 0 0 rfl _ _ j k) (fun j k => Layouts.slab3_apply _ 1 1 rfl _ _ j k)
    (fun j => Layouts.vec2_apply _ 0 0 rfl _ _ j) (fun j => Layouts.vec2_apply _ 0 0 rfl _ _ j)
    (fun j => Layouts.vec2_apply _ 1 1 rfl _ _ j) (fun j => Layouts.vec2_apply _ 1 1 rfl _ _ j) R k

/-- The second layer's output, at row `R`, from the first layer's row. -/
theorem row2 (R : Fin 8192) (k : Fin 1024) :
    res_main_v138 V0 (ix2 R k) = layerRow (fun k' => res_main_v69 V0 (ix2 R k'))
      (fun d j k => V0 (Proc.devRef .tc main_arg5) (ix4 (0 : Fin 2) d j k)) (fun d j => V0 (Proc.devRef .tc main_arg7) (ix3 (0 : Fin 2) d j))
      (fun d j => V0 (Proc.devRef .tc main_arg8) (ix3 (0 : Fin 2) d j)) k := by
  rw [v138_eq, v83_eq, v117_eq]
  exact layer_apply _ _ _ _ _ _ _ _ _ _
    (fun j k => Layouts.slab4_apply _ 0 0 0 0 rfl rfl _ _ j k) (fun j k => Layouts.slab4_apply _ 0 1 0 1 rfl rfl _ _ j k)
    (fun j => Layouts.vec3_apply _ 0 0 0 0 rfl rfl _ _ j) (fun j => Layouts.vec3_apply _ 0 0 0 0 rfl rfl _ _ j)
    (fun j => Layouts.vec3_apply _ 0 1 0 1 rfl rfl _ _ j) (fun j => Layouts.vec3_apply _ 0 1 0 1 rfl rfl _ _ j) R k

/-- The third layer's output, at row `R`, from the second layer's row. -/
theorem row3 (R : Fin 8192) (k : Fin 1024) :
    ROut (res_main_v152 V0) (res_main_v186 V0) (ix2 R k) = layerRow (fun k' => res_main_v138 V0 (ix2 R k'))
      (fun d j k => V0 (Proc.devRef .tc main_arg5) (ix4 (1 : Fin 2) d j k)) (fun d j => V0 (Proc.devRef .tc main_arg7) (ix3 (1 : Fin 2) d j))
      (fun d j => V0 (Proc.devRef .tc main_arg8) (ix3 (1 : Fin 2) d j)) k := by
  rw [v152_eq, v186_eq]
  exact layer_apply _ _ _ _ _ _ _ _ _ _
    (fun j k => Layouts.slab4_apply _ 1 0 1 0 rfl rfl _ _ j k) (fun j k => Layouts.slab4_apply _ 1 1 1 1 rfl rfl _ _ j k)
    (fun j => Layouts.vec3_apply _ 1 0 1 0 rfl rfl _ _ j) (fun j => Layouts.vec3_apply _ 1 0 1 0 rfl rfl _ _ j)
    (fun j => Layouts.vec3_apply _ 1 1 1 1 rfl rfl _ _ j) (fun j => Layouts.vec3_apply _ 1 1 1 1 rfl rfl _ _ j) R k

/-- The reference's result before its final reshape is `G` of the reshaped input and the parameter arrays. -/
theorem result_eq :
    ROut (res_main_v152 V0) (res_main_v186 V0)
      = G (res_main_v0 V0) (V0 (Proc.devRef .tc main_arg1)) (V0 (Proc.devRef .tc main_arg3)) (V0 (Proc.devRef .tc main_arg4))
          (V0 (Proc.devRef .tc main_arg5)) (V0 (Proc.devRef .tc main_arg7)) (V0 (Proc.devRef .tc main_arg8)) := by
  funext i
  obtain ⟨R, col, rfl⟩ : ∃ (R : Fin 8192) (col : Fin 1024), i = ix2 R col := ⟨i 0, i 1, eq_ix2 i⟩
  rw [row3]
  unfold G net
  congr 1
  funext k
  rw [row2]
  congr 1
  funext k'
  exact row1 V0 R k'

end Cert.ReferenceIdeal.Net

end
-- ==== Proof.lean ====
/-
  A three-layer bidirectional LSTM applied to sequences of length one from zero state, as a Pallas kernel over tiles of
  512 rows against its jnp reference: equal results on the extended reals.

  With zero initial state the recurrent weights and the forget gate drop out, and a layer is, per direction,
  h = σ(o) · tanh (σ(i) · tanh g) of the gate pre-activations z = x · Wᵀ + b_ih + b_hh. The kernel merges the two
  directions' weights into one [1024, 4096] matrix and adds the two biases before the product; the reference multiplies
  per direction and adds the biases one after the other, and spells σ as 1 / (1 + e^(-x)). On the extended reals the
  conversions to bf16 are the identity, the logistic function IS that quotient at every extended real, the merged product
  is the per-direction product column by column, and the two groupings of the bias sum agree because addition is
  associative; no finiteness of the inputs is needed. Both sides are therefore the same function `Lstm.G` of the
  arguments (Proof/Spec.lean), reshaped to [64, 128, 1024]: the kernel's by Proof/KernelNet.lean (the body per tile, the
  sixteen tiles covering the rows, the host lines around the kernel), the reference's by Proof/RefNet.lean.
-/
import proofs.«161337_j13580686590591_2_alg».proof.Defs
import proofs.«161337_j13580686590591_2_alg».proof.Proof.Gen.Kernel
import proofs.«161337_j13580686590591_2_alg».proof.Proof.Gen.Kernel.Skeleton
import proofs.«161337_j13580686590591_2_alg».proof.Proof.Gen.Kernel.Launch
import proofs.«161337_j13580686590591_2_alg».proof.Proof.Gen.Kernel.Points
import proofs.«161337_j13580686590591_2_alg».proof.Proof.Gen.Kernel.Frame
import proofs.«161337_j13580686590591_2_alg».proof.Proof.Gen.KernelIdeal
import proofs.«161337_j13580686590591_2_alg».proof.Proof.Gen.KernelIdeal.Skeleton
import proofs.«161337_j13580686590591_2_alg».proof.Proof.Gen.KernelIdeal.Launch
import proofs.«161337_j13580686590591_2_alg».proof.Proof.Gen.KernelIdeal.Points
import proofs.«161337_j13580686590591_2_alg».proof.Proof.Gen.KernelIdeal.Frame
import proofs.«161337_j13580686590591_2_alg».proof.Proof.Gen.ReferenceIdeal
import proofs.«161337_j13580686590591_2_alg».proof.Proof.Gen.ReferenceIdeal.Run
import proofs.«161337_j13580686590591_2_alg».proof.Proof.Gen.Pre_finite_inputs
import proofs.«161337_j13580686590591_2_alg».proof.Proof.KernelNet
import proofs.«161337_j13580686590591_2_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with the same result: the kernel's run ends
    at the specification's matrix reshaped, and so does the reference's, whose last concatenation is the third layer's
    output. -/
theorem algebraic : Cert.algebraic_KernelIdeal_ReferenceIdeal := by
  intro m ρ m' ρ' _ hagree
  refine ⟨fun c => Cert.KernelIdeal.Net.Res m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, -, h7, h8⟩ := hagree c
  show shapeCast Cert.ReferenceIdeal.S64x128x1024
      (Cert.ReferenceIdeal.Layer.ROut (Cert.ReferenceIdeal.Value.res_main_v152 (StableHlo.launchContents m' c))
        (Cert.ReferenceIdeal.Value.res_main_v186 (StableHlo.launchContents m' c)))
      Cert.ReferenceIdeal.Gen.shapeCasts_S8192x1024_S64x128x1024 = _
  rw [Cert.ReferenceIdeal.Net.result_eq]
  show shapeCast Cert.ReferenceIdeal.S64x128x1024
      (Cert.Lstm.G (shapeCast Cert.ReferenceIdeal.S8192x1024 (m' ((c.tc : Thread Cert.ReferenceIdeal.nD Cert.ReferenceIdeal.τ).loc Cert.ReferenceIdeal.main_arg0)) Cert.ReferenceIdeal.Gen.shapeCasts_S64x128x1024_S8192x1024)
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)))
      Cert.ReferenceIdeal.Gen.shapeCasts_S8192x1024_S64x128x1024 = _
  rw [h0, h1, h3, h4, h5, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
